-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S250x4 : Shape := ⟨2, ![250, 4]⟩
abbrev S2x1600000 : Shape := ⟨2, ![2, 1600000]⟩
abbrev S100000 : Shape := ⟨1, ![100000]⟩
abbrev S64x13 : Shape := ⟨2, ![64, 13]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S250x4 : S_.BroadcastsInDim S250x4 (![] : Fin 0 → Fin S250x4.rank)
  reducesTo_S250x4_S_d0_1 : S250x4.ReducesTo [0, 1] S_
  bcast_S_S64x13 : S_.BroadcastsInDim S64x13 (![] : Fin 0 → Fin S64x13.rank)
  reducesTo_S64x13_S_d0_1 : S64x13.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1 .f32) (main_v83 : IVec S_ 1) (main_v84 : FVec F S1x64 .f32) (main_cst_32 : FVec F S_ .f32) : IVec S_ 1 :=
  let main_v85 : FVec F S1x64 .f32 := broadcastInDim S1x64 ![] bcast_S_S1x64 main_cst_32
  let main_v86 : IVec S1x64 1 := cmpf .olt main_v84 main_v85
  let main_c_33 : IVec S_ 1 := constantI S_ 1 1#1
  let main_v87 : IVec S_ 1 := (fun x v => Host.reduce IntOp.andi x v reducesTo_S1x64_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg16 : FVec F S64 .f32) (main_arg17 : FVec F S64x64 .f32) (main_arg18 : FVec F S64 .f32) (main_arg19 : FVec F S1x64 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S1x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S1x64 .f32) (main_arg20 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S1x64 .f32) (main_arg20 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_v48 main_v49 main_v50

def fn_part1 {F : FTy → Type} [FloatOps F] (main_arg6 : FVec F S64x13 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S1x64 .f32) (main_arg20 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x13 .f32 := Host.absf main_arg6
  let main_cst_6 : FVec F S_ .f32 := constant S_ .f32 0x7F800000#32
  let main_v20 : FVec F S64x13 .f32 := broadcastInDim S64x13 ![] bcast_S_S64x13 main_cst_6
  let main_v21 : IVec S64x13 1 := cmpf .olt main_v19 main_v20
  let main_c_7 : IVec S_ 1 := constantI S_ 1 1#1
  let main_v22 : IVec S_ 1 := (fun x v => Host.reduce IntOp.andi x v reducesTo_S64x13_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x9 .f32) (main_arg1 : FVec F S250x4 .f32) (main_arg2 : IVec S2x1600000 32) (main_arg3 : IVec S100000 32) (main_arg4 : FVec F S64x13 .f32) (main_arg5 : FVec F S64 .f32) (main_arg6 : FVec F S64x13 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S1x64 .f32) (main_arg20 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S250x4 .f32 := Host.absf main_arg1
  let main_cst_0 : FVec F S_ .f32 := constant S_ .f32 0x7F800000#32
  let main_v5 : FVec F S250x4 .f32 := broadcastInDim S250x4 ![] bcast_S_S250x4 main_cst_0
  let main_v6 : IVec S250x4 1 := cmpf .olt main_v4 main_v5
  let main_c_1 : IVec S_ 1 := constantI S_ 1 1#1
  let main_v7 : IVec S_ 1 := (fun x v => Host.reduce IntOp.andi x v reducesTo_S250x4_S_d0_1 h_S_) main_v6 main_c_1
  let main_v8 : IVec S_ 1 := andi main_v3 main_v7
  let main_v9 : FVec F S64x13 .f32 := Host.absf main_arg4
  let main_cst_2 : FVec F S_ .f32 := constant S_ .f32 0x7F800000#32
  let main_v10 : FVec F S64x13 .f32 := broadcastInDim S64x13 ![] bcast_S_S64x13 main_cst_2
  let main_v11 : IVec S64x13 1 := cmpf .olt main_v9 main_v10
  let main_c_3 : IVec S_ 1 := constantI S_ 1 1#1
  let main_v12 : IVec S_ 1 := (fun x v => Host.reduce IntOp.andi x v reducesTo_S64x13_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x9 : Shape := ⟨2, ![100000, 9]⟩
abbrev S250x4 : Shape := ⟨2, ![250, 4]⟩
abbrev S2x1600000 : Shape := ⟨2, ![2, 1600000]⟩
abbrev S100000 : Shape := ⟨1, ![100000]⟩
abbrev S64x13 : Shape := ⟨2, ![64, 13]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x4 : Shape := ⟨2, ![100000, 4]⟩
abbrev S100000x13 : Shape := ⟨2, ![100000, 13]⟩
abbrev S1600000x13 : Shape := ⟨2, ![1600000, 13]⟩
abbrev S13x64 : Shape := ⟨2, ![13, 64]⟩
abbrev S100000x64 : Shape := ⟨2, ![100000, 64]⟩
abbrev S10000x13 : Shape := ⟨2, ![10000, 13]⟩
abbrev S10000x64 : Shape := ⟨2, ![10000, 64]⟩
abbrev S1600000x64 : Shape := ⟨2, ![1600000, 64]⟩
abbrev S250x64 : Shape := ⟨2, ![250, 64]⟩
abbrev S250x1 : Shape := ⟨2, ![250, 1]⟩
abbrev S64x1 : Shape := ⟨2, ![64, 1]⟩
abbrev S1x1 : Shape := ⟨2, ![1, 1]⟩
abbrev S250 : Shape := ⟨1, ![250]⟩

abbrev nBuf : Space → Nat
  | .hbm => 121
  | .vmem => 38
  | .smem => 0
  | _ => 0

abbrev bufTy : (tb : Table) → Fin (tcTables nBuf tb) → BufTy
  | .hbm, ⟨0, _⟩ => ⟨S100000x9, .f32⟩
  | .hbm, ⟨1, _⟩ => ⟨S250x4, .f32⟩
  | .hbm, ⟨2, _⟩ => ⟨S2x1600000, .i32⟩
  | .hbm, ⟨3, _⟩ => ⟨S100000, .i32⟩
  | .hbm, ⟨4, _⟩ => ⟨S64x13, .f32⟩
  | .hbm, ⟨5, _⟩ => ⟨S64, .f32⟩
  | .hbm, ⟨6, _⟩ => ⟨S64x13, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S1x64, .f32⟩
  | .hbm, ⟨20, _⟩ => ⟨S1, .f32⟩
  | .hbm, ⟨21, _⟩ => ⟨S1x1600000, .i32⟩
  | .hbm, ⟨22, _⟩ => ⟨S1600000, .i32⟩
  | .hbm, ⟨23, _⟩ => ⟨S1x1600000, .i32⟩
  | .hbm, ⟨24, _⟩ => ⟨S1600000, .i32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000x4, .f32⟩
  | .hbm, ⟨43, _⟩ => ⟨S100000x13, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x13, .f32⟩
  | .hbm, ⟨53, _⟩ => ⟨S_, .f32⟩
  | .hbm, ⟨54, _⟩ => ⟨S100000x13, .f32⟩
  | .hbm, ⟨55, _⟩ => ⟨S1600000x1, .i32⟩
  | .hbm, ⟨56, _⟩ => ⟨S100000x13, .f32⟩
  | .hbm, ⟨57, _⟩ => ⟨S100000x13, .f32⟩
  | .hbm, ⟨58, _⟩ => ⟨S100000x13, .f32⟩
  | .hbm, ⟨59, _⟩ => ⟨S13x64, .f32⟩
  | .hbm, ⟨60, _⟩ => ⟨S13x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S64x64, .f32⟩
  | .hbm, ⟨80, _⟩ => ⟨S1x64, .f32⟩
  | .hbm, ⟨81, _⟩ => ⟨S100000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S_, .f32⟩
  | .hbm, ⟨92, _⟩ => ⟨S100000x64, .f32⟩
  | .hbm, ⟨93, _⟩ => ⟨S1600000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S64x64, .f32⟩
  | .hbm, ⟨98, _⟩ => ⟨S64x64, .f32⟩
  | .hbm, ⟨99, _⟩ => ⟨S1x64, .f32⟩
  | .hbm, ⟨100, _⟩ => ⟨S100000x64, .f32⟩
  | .hbm, ⟨101, _⟩ => ⟨S_, .f32⟩
  | .hbm, ⟨102, _⟩ => ⟨S250x64, .f32⟩
  | .hbm, ⟨103, _⟩ => ⟨S100000x1, .i32⟩
  | .hbm, ⟨104, _⟩ => ⟨S250x64, .f32⟩
  | .hbm, ⟨105, _⟩ => ⟨S_, .f32⟩
  | .hbm, ⟨106, _⟩ => ⟨S100000x1, .f32⟩
  | .hbm, ⟨107, _⟩ => ⟨S_, .f32⟩
  | .hbm, ⟨108, _⟩ => ⟨S250x1, .f32⟩
  | .hbm, ⟨109, _⟩ => ⟨S100000x1, .i32⟩
  | .hbm, ⟨110, _⟩ => ⟨S250x1, .f32⟩
  | .hbm, ⟨111, _⟩ => ⟨S64x64, .f32⟩
  | .hbm, ⟨112, _⟩ => ⟨S1x64, .f32⟩
  | .hbm, ⟨113, _⟩ => ⟨S64x64, .f32⟩
  | .hbm, ⟨114, _⟩ => ⟨S1x64, .f32⟩
  | .hbm, ⟨115, _⟩ => ⟨S64x64, .f32⟩
  | .hbm, ⟨116, _⟩ => ⟨S1x64, .f32⟩
  | .hbm, ⟨117, _⟩ => ⟨S64x1, .f32⟩
  | .hbm, ⟨118, _⟩ => ⟨S1x1, .f32⟩
  | .hbm, ⟨119, _⟩ => ⟨S250x1, .f32⟩
  | .hbm, ⟨120, _⟩ => ⟨S250, .f32⟩
  | .local _ .vmem, ⟨0, _⟩ => ⟨S10000x13, .f32⟩
  | .local _ .vmem, ⟨1, _⟩ => ⟨S10000x13, .f32⟩
  | .local _ .vmem, ⟨2, _⟩ => ⟨S10000x13, .f32⟩
  | .local _ .vmem, ⟨3, _⟩ => ⟨S10000x13, .f32⟩
  | .local _ .vmem, ⟨4, _⟩ => ⟨S13x64, .f32⟩
  | .local _ .vmem, ⟨5, _⟩ => ⟨S13x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S250x64, .f32⟩
  | .local _ .vmem, ⟨28, _⟩ => ⟨S250x1, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S64x1, .f32⟩
  | .local _ .vmem, ⟨36, _⟩ => ⟨S1x1, .f32⟩
  | .local _ .vmem, ⟨37, _⟩ => ⟨S250x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_c_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S250x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S250x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S250x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x9_S100000x4_S100000x13_d1 : Shape.Concatenates [S100000x9, S100000x4] S100000x13 1
  bcast_S_S1600000 : S_.BroadcastsInDim S1600000 (![] : Fin 0 → Fin S1600000.rank)
  bcast_S_S100000x13 : S_.BroadcastsInDim S100000x13 (![] : Fin 0 → Fin S100000x13.rank)
  bcast_S100000x1_S100000x13_0_1 : S100000x1.BroadcastsInDim S100000x13 (![0, 1] : Fin 2 → Fin S100000x13.rank)
  transposes_S64x13_S13x64_1_0 : S64x13.Transposes [1, 0] S13x64
  shapeCasts_S64_S1x64 : S64.ShapeCasts S1x64
  inb_S10000x13_S10000x13_0_0 : ∀ a, (![0, 0] : Fin 2 → Nat) a + S10000x13.size a ≤ S10000x13.size a
  h_S10000x13 : 0 < S10000x13.numel
  shapeCasts_S10000x13_S10000x13 : S10000x13.ShapeCasts S10000x13
  bitsLt_bf16_f32 : FTy.bits .bf16 < FTy.bits .f32
  inb_S13x64_S13x64_0_0 : ∀ a, (![0, 0] : Fin 2 → Nat) a + S13x64.size a ≤ S13x64.size a
  h_S13x64 : 0 < S13x64.numel
  shapeCasts_S13x64_S13x64 : S13x64.ShapeCasts S13x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S250x64 : S_.BroadcastsInDim S250x64 (![] : Fin 0 → Fin S250x64.rank)
  bcast_S_S250x1 : S_.BroadcastsInDim S250x1 (![] : Fin 0 → Fin S250x1.rank)
  transposes_S1x64_S64x1_1_0 : S1x64.Transposes [1, 0] S64x1
  shapeCasts_S1_S1x1 : S1.ShapeCasts S1x1
  inb_S250x1_S250x1_0_0 : ∀ a, (![0, 0] : Fin 2 → Nat) a + S250x1.size a ≤ S250x1.size a
  h_S250x1 : 0 < S250x1.numel
  shapeCasts_S250x1_S250x1 : S250x1.ShapeCasts S250x1
  inb_S250x64_S250x64_0_0 : ∀ a, (![0, 0] : Fin 2 → Nat) a + S250x64.size a ≤ S250x64.size a
  h_S250x64 : 0 < S250x64.numel
  shapeCasts_S250x64_S250x64 : S250x64.ShapeCasts S250x64
  broadcasts_S250x1_S250x64 : S250x1.Broadcasts S250x64
  broadcasts_S1x64_S250x64 : S1x64.Broadcasts S250x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S250x1 : S1x1.Broadcasts S250x1
  shapeCasts_S250x1_S250 : S250x1.ShapeCasts S250
  scatter_S100000x1_S1600000x1_S1600000x1_1_0_0_1_wf : ScatterDims.WF S100000x1 S1600000x1 S1600000x1 [1] [0] [0] 1
  gather_S250x4_S100000x1_S100000x4_1_0_n_n_0_1_14_wf : GatherDims.WF S250x4 S100000x1 S100000x4 [1] [0] [] [0] [] 1 ![1, 4]
  gather_S100000x13_S1600000x1_S1600000x13_1_0_n_n_0_1_113_wf : GatherDims.WF S100000x13 S1600000x1 S1600000x13 [1] [0] [] [0] [] 1 ![1, 13]
  scatter_S100000x13_S1600000x1_S1600000x13_1_0_0_1_wf : ScatterDims.WF S100000x13 S1600000x1 S1600000x13 [1] [0] [0] 1
  dot_S10000x13_S13x64_S10000x64_1_0_0_1_n_n_wf : DotDims.WF S10000x13 S13x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S250x64_S100000x1_S100000x64_1_0_0_1_wf : ScatterDims.WF S250x64 S100000x1 S100000x64 [1] [0] [0] 1
  scatter_S250x1_S100000x1_S100000x1_1_0_0_1_wf : ScatterDims.WF S250x1 S100000x1 S100000x1 [1] [0] [0] 1
  dot_S250x64_S64x64_S250x64_1_0_0_1_n_n_wf : DotDims.WF S250x64 S64x64 S250x64 [1] [0] [0] [1] [] []
  dot_S250x64_S64x1_S250x1_1_0_0_1_n_n_wf : DotDims.WF S250x64 S64x1 S250x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S100000x13.size a
  hwx0_0 : ∀ i : grid0.Coords, EltTy.bits .f32 = 32 ∨ (Rect.block (s := S100000x13) S10000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x13.size a ≤ S100000x13.size a
  hwx0_1 : ∀ i : grid0.Coords, EltTy.bits .f32 = 32 ∨ (Rect.block (s := S100000x13) S10000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x64.size a ≤ S13x64.size a
  hwx0_2 : ∀ i : grid0.Coords, EltTy.bits .f32 = 32 ∨ (Rect.block (s := S13x64) S13x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x64.size a ≤ S13x64.size a
  hwx0_3 : ∀ i : grid0.Coords, EltTy.bits .f32 = 32 ∨ (Rect.block (s := S13x64) S13x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S250x64.size a ≤ S250x64.size a
  hwx3_0 : ∀ i : grid3.Coords, EltTy.bits .f32 = 32 ∨ (Rect.block (s := S250x64) S250x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S250x1.size a ≤ S250x1.size a
  hwx3_1 : ∀ i : grid3.Coords, EltTy.bits .f32 = 32 ∨ (Rect.block (s := S250x1) S250x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x1.size a ≤ S64x1.size a
  hwx3_8 : ∀ i : grid3.Coords, EltTy.bits .f32 = 32 ∨ (Rect.block (s := S64x1) S64x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S250x1.size a ≤ S250x1.size a
  hwx3_10 : ∀ i : grid3.Coords, EltTy.bits .f32 = 32 ∨ (Rect.block (s := S250x1) S250x1.size (cc3_transform_10 i) (hinb3_10 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S250x4_S100000x1_S100000x4_1_0_n_n_0_1_14 : GatherDims S250x4 S100000x1 S100000x4 where
  offsetDims := [1]
  collapsedSliceDims := [0]
  operandBatchingDims := []
  startIndicesBatchingDims := []
  startIndexMap := [0]
  indexVectorDim := 1
  sliceSizes := ![1, 4]
  wf := gather_S250x4_S100000x1_S100000x4_1_0_n_n_0_1_14_wf
def gather_S100000x13_S1600000x1_S1600000x13_1_0_n_n_0_1_113 : GatherDims S100000x13 S1600000x1 S1600000x13 where
  offsetDims := [1]
  collapsedSliceDims := [0]
  operandBatchingDims := []
  startIndicesBatchingDims := []
  startIndexMap := [0]
  indexVectorDim := 1
  sliceSizes := ![1, 13]
  wf := gather_S100000x13_S1600000x1_S1600000x13_1_0_n_n_0_1_113_wf
def scatter_S100000x13_S1600000x1_S1600000x13_1_0_0_1 : ScatterDims S100000x13 S1600000x1 S1600000x13 where
  updateWindowDims := [1]
  insertedWindowDims := [0]
  scatterDimsToOperandDims := [0]
  indexVectorDim := 1
  wf := scatter_S100000x13_S1600000x1_S1600000x13_1_0_0_1_wf
def dot_S10000x13_S13x64_S10000x64_1_0_0_1_n_n : DotDims S10000x13 S13x64 S10000x64 where
  lhsContracting := [1]
  rhsContracting := [0]
  lhsNonContracting := [0]
  rhsNonContracting := [1]
  lhsBatch := []
  rhsBatch := []
  wf := dot_S10000x13_S13x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S250x64_S100000x1_S100000x64_1_0_0_1 : ScatterDims S250x64 S100000x1 S100000x64 where
  updateWindowDims := [1]
  insertedWindowDims := [0]
  scatterDimsToOperandDims := [0]
  indexVectorDim := 1
  wf := scatter_S250x64_S100000x1_S100000x64_1_0_0_1_wf
def scatter_S250x1_S100000x1_S100000x1_1_0_0_1 : ScatterDims S250x1 S100000x1 S100000x1 where
  updateWindowDims := [1]
  insertedWindowDims := [0]
  scatterDimsToOperandDims := [0]
  indexVectorDim := 1
  wf := scatter_S250x1_S100000x1_S100000x1_1_0_0_1_wf
def dot_S250x64_S64x64_S250x64_1_0_0_1_n_n : DotDims S250x64 S64x64 S250x64 where
  lhsContracting := [1]
  rhsContracting := [0]
  lhsNonContracting := [0]
  rhsNonContracting := [1]
  lhsBatch := []
  rhsBatch := []
  wf := dot_S250x64_S64x64_S250x64_1_0_0_1_n_n_wf
def dot_S250x64_S64x1_S250x1_1_0_0_1_n_n : DotDims S250x64 S64x1 S250x1 where
  lhsContracting := [1]
  rhsContracting := [0]
  lhsNonContracting := [0]
  rhsNonContracting := [1]
  lhsBatch := []
  rhsBatch := []
  wf := dot_S250x64_S64x1_S250x1_1_0_0_1_n_n_wf

abbrev win0_0 : Pipeline.Window sig grid0 :=
  Pipeline.Window.ofSpec (Memref.whole main_v29) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S13x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S13x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v68) S250x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v72) S250x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v79) S64x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v80) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v81) S250x1.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x9 : Shape := ⟨2, ![100000, 9]⟩
abbrev S250x4 : Shape := ⟨2, ![250, 4]⟩
abbrev S2x1600000 : Shape := ⟨2, ![2, 1600000]⟩
abbrev S100000 : Shape := ⟨1, ![100000]⟩
abbrev S64x13 : Shape := ⟨2, ![64, 13]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x4 : Shape := ⟨2, ![100000, 4]⟩
abbrev S100000x13 : Shape := ⟨2, ![100000, 13]⟩
abbrev S1600000x1 : Shape := ⟨2, ![1600000, 1]⟩
abbrev S1600000x13 : Shape := ⟨2, ![1600000, 13]⟩
abbrev S13x64 : Shape := ⟨2, ![13, 64]⟩
abbrev S100000x64 : Shape := ⟨2, ![100000, 64]⟩
abbrev S1600000x64 : Shape := ⟨2, ![1600000, 64]⟩
abbrev S250x64 : Shape := ⟨2, ![250, 64]⟩
abbrev S250x1 : Shape := ⟨2, ![250, 1]⟩
abbrev S64x1 : Shape := ⟨2, ![64, 1]⟩
abbrev S1x1 : Shape := ⟨2, ![1, 1]⟩
abbrev S250 : Shape := ⟨1, ![250]⟩

abbrev nBuf : Space → Nat
  | .hbm => 182
  | .vmem => 0
  | .smem => 0
  | _ => 0

abbrev hbmTy0_0 (i : Nat) : BufTy := match i % 128 with
  | 0 => ⟨S100000x9, .f32⟩
  | 1 => ⟨S250x4, .f32⟩
  | 2 => ⟨S2x1600000, .i32⟩
  | 3 => ⟨S100000, .i32⟩
  | 4 => ⟨S64x13, .f32⟩
  | 5 => ⟨S64, .f32⟩
  | 6 => ⟨S64x13, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S1x64, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x4, .f32⟩
  | 34 => ⟨S100000x13, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x13, .f32⟩
  | 44 => ⟨S_, .f32⟩
  | 45 => ⟨S100000x13, .f32⟩
  | 46 => ⟨S1600000x1, .i32⟩
  | 47 => ⟨S100000x13, .f32⟩
  | 48 => ⟨S_, .f32⟩
  | 49 => ⟨S1600000x1, .f32⟩
  | 50 => ⟨S_, .f32⟩
  | 51 => ⟨S100000x1, .f32⟩
  | 52 => ⟨S1600000x1, .i32⟩
  | 53 => ⟨S100000x1, .f32⟩
  | 54 => ⟨S_, .f32⟩
  | 55 => ⟨S100000x1, .f32⟩
  | 56 => ⟨S100000x1, .f32⟩
  | 57 => ⟨S100000x13, .f32⟩
  | 58 => ⟨S100000x13, .f32⟩
  | 59 => ⟨S13x64, .f32⟩
  | 60 => ⟨S100000x64, .f32⟩
  | 61 => ⟨S1x64, .f32⟩
  | 62 => ⟨S100000x64, .f32⟩
  | 63 => ⟨S100000x64, .f32⟩
  | 64 => ⟨S13x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S1600000x1, .f32⟩
  | 85 => ⟨S_, .f32⟩
  | 86 => ⟨S100000x1, .f32⟩
  | 87 => ⟨S1600000x1, .i32⟩
  | 88 => ⟨S100000x1, .f32⟩
  | 89 => ⟨S_, .f32⟩
  | 90 => ⟨S100000x1, .f32⟩
  | 91 => ⟨S100000x1, .f32⟩
  | 92 => ⟨S100000x64, .f32⟩
  | 93 => ⟨S100000x64, .f32⟩
  | 94 => ⟨S64x64, .f32⟩
  | 95 => ⟨S100000x64, .f32⟩
  | 96 => ⟨S1x64, .f32⟩
  | 97 => ⟨S100000x64, .f32⟩
  | 98 => ⟨S100000x64, .f32⟩
  | 99 => ⟨S64x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S_, .f32⟩
  | 119 => ⟨S1600000x1, .f32⟩
  | 120 => ⟨S_, .f32⟩
  | 121 => ⟨S100000x1, .f32⟩
  | 122 => ⟨S1600000x1, .i32⟩
  | 123 => ⟨S100000x1, .f32⟩
  | 124 => ⟨S_, .f32⟩
  | 125 => ⟨S100000x1, .f32⟩
  | 126 => ⟨S100000x1, .f32⟩
  | 127 => ⟨S100000x64, .f32⟩
  | _ => ⟨S100000x9, .f32⟩

abbrev hbmTy0_1 (i : Nat) : BufTy := match i % 128 with
  | 0 => ⟨S100000x64, .f32⟩
  | 1 => ⟨S64x64, .f32⟩
  | 2 => ⟨S100000x64, .f32⟩
  | 3 => ⟨S1x64, .f32⟩
  | 4 => ⟨S100000x64, .f32⟩
  | 5 => ⟨S100000x64, .f32⟩
  | 6 => ⟨S64x64, .f32⟩
  | 7 => ⟨S100000x64, .f32⟩
  | 8 => ⟨S100000x64, .f32⟩
  | 9 => ⟨S_, .f32⟩
  | 10 => ⟨S250x64, .f32⟩
  | 11 => ⟨S100000x1, .i32⟩
  | 12 => ⟨S250x64, .f32⟩
  | 13 => ⟨S_, .f32⟩
  | 14 => ⟨S100000x1, .f32⟩
  | 15 => ⟨S_, .f32⟩
  | 16 => ⟨S250x1, .f32⟩
  | 17 => ⟨S100000x1, .i32⟩
  | 18 => ⟨S250x1, .f32⟩
  | 19 => ⟨S_, .f32⟩
  | 20 => ⟨S250x1, .f32⟩
  | 21 => ⟨S250x1, .f32⟩
  | 22 => ⟨S250x64, .f32⟩
  | 23 => ⟨S250x64, .f32⟩
  | 24 => ⟨S64x64, .f32⟩
  | 25 => ⟨S250x64, .f32⟩
  | 26 => ⟨S1x64, .f32⟩
  | 27 => ⟨S250x64, .f32⟩
  | 28 => ⟨S250x64, .f32⟩
  | 29 => ⟨S_, .f32⟩
  | 30 => ⟨S250x64, .f32⟩
  | 31 => ⟨S250x64, .f32⟩
  | 32 => ⟨S64x64, .f32⟩
  | 33 => ⟨S250x64, .f32⟩
  | 34 => ⟨S1x64, .f32⟩
  | 35 => ⟨S250x64, .f32⟩
  | 36 => ⟨S250x64, .f32⟩
  | 37 => ⟨S_, .f32⟩
  | 38 => ⟨S250x64, .f32⟩
  | 39 => ⟨S250x64, .f32⟩
  | 40 => ⟨S64x64, .f32⟩
  | 41 => ⟨S250x64, .f32⟩
  | 42 => ⟨S1x64, .f32⟩
  | 43 => ⟨S250x64, .f32⟩
  | 44 => ⟨S250x64, .f32⟩
  | 45 => ⟨S_, .f32⟩
  | 46 => ⟨S250x64, .f32⟩
  | 47 => ⟨S250x64, .f32⟩
  | 48 => ⟨S64x1, .f32⟩
  | 49 => ⟨S250x1, .f32⟩
  | 50 => ⟨S1x1, .f32⟩
  | 51 => ⟨S250x1, .f32⟩
  | 52 => ⟨S250x1, .f32⟩
  | 53 => ⟨S250, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call0_cst : Ref sig .tc := ⟨.hbm, 67, rfl⟩
abbrev main_call0_v0 : Ref sig .tc := ⟨.hbm, 68, rfl⟩
abbrev main_v38 : Ref sig .tc := ⟨.hbm, 69, rfl⟩
abbrev main_c_6 : Ref sig .tc := ⟨.hbm, 70, rfl⟩
abbrev main_v39 : Ref sig .tc := ⟨.hbm, 71, rfl⟩
abbrev main_v40 : Ref sig .tc := ⟨.hbm, 72, rfl⟩
abbrev main_c_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call1_cst : Ref sig .tc := ⟨.hbm, 102, rfl⟩
abbrev main_call1_v0 : Ref sig .tc := ⟨.hbm, 103, rfl⟩
abbrev main_v65 : Ref sig .tc := ⟨.hbm, 104, rfl⟩
abbrev main_c_12 : Ref sig .tc := ⟨.hbm, 105, rfl⟩
abbrev main_v66 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_15 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_17 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_19 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_call2_cst : Ref sig .tc := ⟨.hbm, 157, rfl⟩
abbrev main_call2_v0 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call3_cst : Ref sig .tc := ⟨.hbm, 165, rfl⟩
abbrev main_call3_v0 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_call4_cst : Ref sig .tc := ⟨.hbm, 173, rfl⟩
abbrev main_call4_v0 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S100000x9_S100000x4_S100000x13_d1 : Shape.Concatenates [S100000x9, S100000x4] S100000x13 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x13 : S_.BroadcastsInDim S100000x13 (![] : Fin 0 → Fin S100000x13.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x13_0_1 : S100000x1.BroadcastsInDim S100000x13 (![0, 1] : Fin 2 → Fin S100000x13.rank)
  transposes_S64x13_S13x64_1_0 : S64x13.Transposes [1, 0] S13x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S_S250x64 : S_.BroadcastsInDim S250x64 (![] : Fin 0 → Fin S250x64.rank)
  bcast_S_S250x1 : S_.BroadcastsInDim S250x1 (![] : Fin 0 → Fin S250x1.rank)
  bcast_S250x1_S250x64_0_1 : S250x1.BroadcastsInDim S250x64 (![0, 1] : Fin 2 → Fin S250x64.rank)
  bcast_S1x64_S250x64_0_1 : S1x64.BroadcastsInDim S250x64 (![0, 1] : Fin 2 → Fin S250x64.rank)
  transposes_S1x64_S64x1_1_0 : S1x64.Transposes [1, 0] S64x1
  bcast_S1_S1x1_1 : S1.BroadcastsInDim S1x1 (![1] : Fin 1 → Fin S1x1.rank)
  bcast_S1x1_S250x1_0_1 : S1x1.BroadcastsInDim S250x1 (![0, 1] : Fin 2 → Fin S250x1.rank)
  shapeCasts_S250x1_S250 : S250x1.ShapeCasts S250
  gather_S250x4_S100000x1_S100000x4_1_0_n_n_0_1_14_wf : GatherDims.WF S250x4 S100000x1 S100000x4 [1] [0] [] [0] [] 1 ![1, 4]
  gather_S100000x13_S1600000x1_S1600000x13_1_0_n_n_0_1_113_wf : GatherDims.WF S100000x13 S1600000x1 S1600000x13 [1] [0] [] [0] [] 1 ![1, 13]
  scatter_S100000x13_S1600000x1_S1600000x13_1_0_0_1_wf : ScatterDims.WF S100000x13 S1600000x1 S1600000x13 [1] [0] [0] 1
  scatter_S100000x1_S1600000x1_S1600000x1_1_0_0_1_wf : ScatterDims.WF S100000x1 S1600000x1 S1600000x1 [1] [0] [0] 1
  dot_S100000x13_S13x64_S100000x64_1_0_0_1_n_n_wf : DotDims.WF S100000x13 S13x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S250x64_S100000x1_S100000x64_1_0_0_1_wf : ScatterDims.WF S250x64 S100000x1 S100000x64 [1] [0] [0] 1
  scatter_S250x1_S100000x1_S100000x1_1_0_0_1_wf : ScatterDims.WF S250x1 S100000x1 S100000x1 [1] [0] [0] 1
  dot_S250x64_S64x64_S250x64_1_0_0_1_n_n_wf : DotDims.WF S250x64 S64x64 S250x64 [1] [0] [0] [1] [] []
  dot_S250x64_S64x1_S250x1_1_0_0_1_n_n_wf : DotDims.WF S250x64 S64x1 S250x1 [1] [0] [0] [1] [] []

variable [Facts₀]

def gather_S250x4_S100000x1_S100000x4_1_0_n_n_0_1_14 : GatherDims S250x4 S100000x1 S100000x4 where
  offsetDims := [1]
  collapsedSliceDims := [0]
  operandBatchingDims := []
  startIndicesBatchingDims := []
  startIndexMap := [0]
  indexVectorDim := 1
  sliceSizes := ![1, 4]
  wf := gather_S250x4_S100000x1_S100000x4_1_0_n_n_0_1_14_wf
def gather_S100000x13_S1600000x1_S1600000x13_1_0_n_n_0_1_113 : GatherDims S100000x13 S1600000x1 S1600000x13 where
  offsetDims := [1]
  collapsedSliceDims := [0]
  operandBatchingDims := []
  startIndicesBatchingDims := []
  startIndexMap := [0]
  indexVectorDim := 1
  sliceSizes := ![1, 13]
  wf := gather_S100000x13_S1600000x1_S1600000x13_1_0_n_n_0_1_113_wf
def scatter_S100000x13_S1600000x1_S1600000x13_1_0_0_1 : ScatterDims S100000x13 S1600000x1 S1600000x13 where
  updateWindowDims := [1]
  insertedWindowDims := [0]
  scatterDimsToOperandDims := [0]
  indexVectorDim := 1
  wf := scatter_S100000x13_S1600000x1_S1600000x13_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x13_S13x64_S100000x64_1_0_0_1_n_n : DotDims S100000x13 S13x64 S100000x64 where
  lhsContracting := [1]
  rhsContracting := [0]
  lhsNonContracting := [0]
  rhsNonContracting := [1]
  lhsBatch := []
  rhsBatch := []
  wf := dot_S100000x13_S13x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S250x64_S100000x1_S100000x64_1_0_0_1 : ScatterDims S250x64 S100000x1 S100000x64 where
  updateWindowDims := [1]
  insertedWindowDims := [0]
  scatterDimsToOperandDims := [0]
  indexVectorDim := 1
  wf := scatter_S250x64_S100000x1_S100000x64_1_0_0_1_wf
def scatter_S250x1_S100000x1_S100000x1_1_0_0_1 : ScatterDims S250x1 S100000x1 S100000x1 where
  updateWindowDims := [1]
  insertedWindowDims := [0]
  scatterDimsToOperandDims := [0]
  indexVectorDim := 1
  wf := scatter_S250x1_S100000x1_S100000x1_1_0_0_1_wf
def dot_S250x64_S64x64_S250x64_1_0_0_1_n_n : DotDims S250x64 S64x64 S250x64 where
  lhsContracting := [1]
  rhsContracting := [0]
  lhsNonContracting := [0]
  rhsNonContracting := [1]
  lhsBatch := []
  rhsBatch := []
  wf := dot_S250x64_S64x64_S250x64_1_0_0_1_n_n_wf
def dot_S250x64_S64x1_S250x1_1_0_0_1_n_n : DotDims S250x64 S64x1 S250x1 where
  lhsContracting := [1]
  rhsContracting := [0]
  lhsNonContracting := [0]
  rhsNonContracting := [1]
  lhsBatch := []
  rhsBatch := []
  wf := dot_S250x64_S64x1_S250x1_1_0_0_1_n_n_wf

class Facts : Prop extends Facts₀ where

variable [Facts]
-- ==== Proof.KernelRun.lean ====
/-
  The idealized kernel program's run with its result named.

  The program is four kernel regions among five stretches of host operations.  Its run is a chain of segments; at the
  boundary after the last stretch every unscoped buffer of a core holds the fold of all the segments over the launch
  memory.  Every weakly fair execution therefore ends with the result buffer at that fold read at the result's
  reference, and with the argument arrays as launched.
-/
import proofs.«115719_j12601434046587_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v82) = W9 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v82 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c)⟩)

end Cert.KernelIdeal.Hand

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.ChainA.lean ====
/-
  The idealized kernel program before its first region: what the first stretch of host operations leaves, read against
  the reference program's stages.

  Both programs begin with the same host operations on the same arguments: the two rows of the edge list, the degree of
  every node (the number of edges that end at it, at least one), the node features joined with the gathered graph
  features, the mean of the neighbours' rows, and the transposed weights.  Each buffer the first region or a later stretch
  reads therefore holds the reference's stage of the launch arguments.  The one difference of spelling is the bias: the
  kernel program reshapes the bias vector to a one-row matrix where the reference broadcasts it to one; both are the row
  whose entry q is the vector's entry q.
-/
import proofs.«115719_j12601434046587_2_alg».proof.Proof.Gen.KernelIdeal.Frame
import proofs.«115719_j12601434046587_2_alg».proof.Proof.Gen.ReferenceIdeal.Read
import proofs.«115719_j12601434046587_2_alg».proof.Proof.LibHostLayout

set_option maxRecDepth 16384

noncomputable section

namespace Cert.KernelIdeal.ChainA

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A vector reshaped to a one-row matrix is the vector broadcast to a one-row matrix. -/
theorem reshape_row_eq_bcast {C : Nat} (hs : (⟨1, ![C]⟩ : Shape).ShapeCasts ⟨2, ![1, C]⟩)
    (hb : (⟨1, ![C]⟩ : Shape).BroadcastsInDim ⟨2, ![1, C]⟩ (![1] : Fin 1 → Fin 2)) (x : (⟨1, ![C]⟩ : Shape).Idx → EReal) :
    shapeCast ⟨2, ![1, C]⟩ x hs = broadcastInDim ⟨2, ![1, C]⟩ ![1] hb x := by
  funext j
  obtain ⟨z, q, rfl⟩ : ∃ (z : Fin 1) (q : Fin C), j = ix2 z q := ⟨j 0, j 1, eq_ix2 j⟩
  rw [Cert.HostLayout.reshape_rowvec_apply, Cert.HostLayout.bcast_rowvec_apply]

set_option maxHeartbeats 4000000 in
theorem V1_v1 : W1 m ρ c (Proc.devRef .tc main_v1) = Cert.ReferenceIdeal.Read.val_main_v1 (F := Ideal) (m ((c : Thread nD τ).loc main_arg2)) := by
  show StableHlo.after hostOps0 (W0 m ρ c) (Proc.devRef .tc main_v1) = _
  after_results_simp <;> rfl

set_option maxHeartbeats 4000000 in
theorem V1_v3 : W1 m ρ c (Proc.devRef .tc main_v3) = Cert.ReferenceIdeal.Read.val_main_v3 (F := Ideal) (m ((c : Thread nD τ).loc main_arg2)) := by
  show StableHlo.after hostOps0 (W0 m ρ c) (Proc.devRef .tc main_v3) = _
  after_results_simp <;> rfl

set_option maxHeartbeats 4000000 in
theorem V1_v9 : W1 m ρ c (Proc.devRef .tc main_v9) = Cert.ReferenceIdeal.Read.val_main_v27 (F := Ideal) (m ((c : Thread nD τ).loc main_arg2)) := by
  show StableHlo.after hostOps0 (W0 m ρ c) (Proc.devRef .tc main_v9) = _
  after_results_simp <;> rfl

set_option maxHeartbeats 4000000 in
theorem V1_v17 : W1 m ρ c (Proc.devRef .tc main_v17) = Cert.ReferenceIdeal.Read.val_main_v11 (F := Ideal) (m ((c : Thread nD τ).loc main_arg0)) (m ((c : Thread nD τ).loc main_arg1)) (m ((c : Thread nD τ).loc main_arg3)) := by
  show StableHlo.after hostOps0 (W0 m ρ c) (Proc.devRef .tc main_v17) = _
  after_results_simp <;> rfl

set_option maxHeartbeats 4000000 in
theorem V1_v29 : W1 m ρ c (Proc.devRef .tc main_v29) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v29) = _
  after_results_simp <;> rfl

set_option maxHeartbeats 4000000 in
theorem V1_v30 : W1 m ρ c (Proc.devRef .tc main_v30) = Cert.ReferenceIdeal.Read.val_main_v30 (F := Ideal) (m ((c : Thread nD τ).loc main_arg4)) := by
  show StableHlo.after hostOps0 (W0 m ρ c) (Proc.devRef .tc main_v30) = _
  after_results_simp <;> rfl

set_option maxHeartbeats 4000000 in
theorem V1_v31 : W1 m ρ c (Proc.devRef .tc main_v31) = Cert.ReferenceIdeal.Read.val_main_v35 (F := Ideal) (m ((c : Thread nD τ).loc main_arg6)) := by
  show StableHlo.after hostOps0 (W0 m ρ c) (Proc.devRef .tc main_v31) = _
  after_results_simp <;> rfl

set_option maxHeartbeats 4000000 in
theorem V1_v32 : W1 m ρ c (Proc.devRef .tc main_v32) = Cert.ReferenceIdeal.Read.val_main_v32 (F := Ideal) (m ((c : Thread nD τ).loc main_arg5)) := by
  show StableHlo.after hostOps0 (W0 m ρ c) (Proc.devRef .tc main_v32) = _
  after_results_simp
  exact reshape_row_eq_bcast _ _ _

end Cert.KernelIdeal.ChainA

end
-- ==== Proof.Carry.lean ====
/-
  Buffers no region writes, carried through the idealized kernel program.

  The two rows of the edge list, the degree of every node and the weight and bias arguments are written once (or never)
  and only read afterwards: no later host operation and no region's write-back touches them.  So at every later boundary
  between segments each of them still holds what it held when it was written: the reference's stage of the launch
  arguments for the edge rows and the degree, the launch contents for an argument.
-/
import proofs.«115719_j12601434046587_2_alg».proof.Proof.Gen.KernelIdeal.Frame
import proofs.«115719_j12601434046587_2_alg».proof.Proof.Gen.ReferenceIdeal.Read
import proofs.«115719_j12601434046587_2_alg».proof.Proof.ChainA

set_option maxRecDepth 16384

noncomputable section

namespace Cert.KernelIdeal.Carry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
theorem W1_arg3 : W1 m ρ c (Proc.devRef .tc main_arg3) = m ((c : Thread nD τ).loc main_arg3) := by
  show StableHlo.after hostOps0 (W0 m ρ c) (Proc.devRef .tc main_arg3) = _
  after_results_simp <;> rfl
set_option maxHeartbeats 4000000 in
theorem W1_arg7 : W1 m ρ c (Proc.devRef .tc main_arg7) = m ((c : Thread nD τ).loc main_arg7) := by
  show StableHlo.after hostOps0 (W0 m ρ c) (Proc.devRef .tc main_arg7) = _
  after_results_simp <;> rfl
set_option maxHeartbeats 4000000 in
theorem W1_arg8 : W1 m ρ c (Proc.devRef .tc main_arg8) = m ((c : Thread nD τ).loc main_arg8) := by
  show StableHlo.after hostOps0 (W0 m ρ c) (Proc.devRef .tc main_arg8) = _
  after_results_simp <;> rfl
set_option maxHeartbeats 4000000 in
theorem W1_arg9 : W1 m ρ c (Proc.devRef .tc main_arg9) = m ((c : Thread nD τ).loc main_arg9) := by
  show StableHlo.after hostOps0 (W0 m ρ c) (Proc.devRef .tc main_arg9) = _
  after_results_simp <;> rfl
set_option maxHeartbeats 4000000 in
theorem W1_arg10 : W1 m ρ c (Proc.devRef .tc main_arg10) = m ((c : Thread nD τ).loc main_arg10) := by
  show StableHlo.after hostOps0 (W0 m ρ c) (Proc.devRef .tc main_arg10) = _
  after_results_simp <;> rfl
set_option maxHeartbeats 4000000 in
theorem W1_arg11 : W1 m ρ c (Proc.devRef .tc main_arg11) = m ((c : Thread nD τ).loc main_arg11) := by
  show StableHlo.after hostOps0 (W0 m ρ c) (Proc.devRef .tc main_arg11) = _
  after_results_simp <;> rfl
set_option maxHeartbeats 4000000 in
theorem W1_arg12 : W1 m ρ c (Proc.devRef .tc main_arg12) = m ((c : Thread nD τ).loc main_arg12) := by
  show StableHlo.after hostOps0 (W0 m ρ c) (Proc.devRef .tc main_arg12) = _
  after_results_simp <;> rfl
set_option maxHeartbeats 4000000 in
theorem W1_arg13 : W1 m ρ c (Proc.devRef .tc main_arg13) = m ((c : Thread nD τ).loc main_arg13) := by
  show StableHlo.after hostOps0 (W0 m ρ c) (Proc.devRef .tc main_arg13) = _
  after_results_simp <;> rfl
set_option maxHeartbeats 4000000 in
theorem W1_arg14 : W1 m ρ c (Proc.devRef .tc main_arg14) = m ((c : Thread nD τ).loc main_arg14) := by
  show StableHlo.after hostOps0 (W0 m ρ c) (Proc.devRef .tc main_arg14) = _
  after_results_simp <;> rfl
set_option maxHeartbeats 4000000 in
theorem W1_arg15 : W1 m ρ c (Proc.devRef .tc main_arg15) = m ((c : Thread nD τ).loc main_arg15) := by
  show StableHlo.after hostOps0 (W0 m ρ c) (Proc.devRef .tc main_arg15) = _
  after_results_simp <;> rfl
set_option maxHeartbeats 4000000 in
theorem W1_arg16 : W1 m ρ c (Proc.devRef .tc main_arg16) = m ((c : Thread nD τ).loc main_arg16) := by
  show StableHlo.after hostOps0 (W0 m ρ c) (Proc.devRef .tc main_arg16) = _
  after_results_simp <;> rfl
set_option maxHeartbeats 4000000 in
theorem W1_arg17 : W1 m ρ c (Proc.devRef .tc main_arg17) = m ((c : Thread nD τ).loc main_arg17) := by
  show StableHlo.after hostOps0 (W0 m ρ c) (Proc.devRef .tc main_arg17) = _
  after_results_simp <;> rfl
set_option maxHeartbeats 4000000 in
theorem W1_arg18 : W1 m ρ c (Proc.devRef .tc main_arg18) = m ((c : Thread nD τ).loc main_arg18) := by
  show StableHlo.after hostOps0 (W0 m ρ c) (Proc.devRef .tc main_arg18) = _
  after_results_simp <;> rfl
set_option maxHeartbeats 4000000 in
theorem W1_arg19 : W1 m ρ c (Proc.devRef .tc main_arg19) = m ((c : Thread nD τ).loc main_arg19) := by
  show StableHlo.after hostOps0 (W0 m ρ c) (Proc.devRef .tc main_arg19) = _
  after_results_simp <;> rfl
set_option maxHeartbeats 4000000 in
theorem W1_arg20 : W1 m ρ c (Proc.devRef .tc main_arg20) = m ((c : Thread nD τ).loc main_arg20) := by
  show StableHlo.after hostOps0 (W0 m ρ c) (Proc.devRef .tc main_arg20) = _
  after_results_simp <;> rfl
theorem W2_v1 : W2 m ρ c (Proc.devRef .tc main_v1) = Cert.ReferenceIdeal.Read.val_main_v1 (F := Ideal) (m ((c : Thread nD τ).loc main_arg2)) :=
  (W2_of_ne m ρ c main_v1 (by decide)).trans (ChainA.V1_v1 m ρ c)
theorem W2_v3 : W2 m ρ c (Proc.devRef .tc main_v3) = Cert.ReferenceIdeal.Read.val_main_v3 (F := Ideal) (m ((c : Thread nD τ).loc main_arg2)) :=
  (W2_of_ne m ρ c main_v3 (by decide)).trans (ChainA.V1_v3 m ρ c)
theorem W2_v9 : W2 m ρ c (Proc.devRef .tc main_v9) = Cert.ReferenceIdeal.Read.val_main_v27 (F := Ideal) (m ((c : Thread nD τ).loc main_arg2)) :=
  (W2_of_ne m ρ c main_v9 (by decide)).trans (ChainA.V1_v9 m ρ c)
theorem W2_arg3 : W2 m ρ c (Proc.devRef .tc main_arg3) = m ((c : Thread nD τ).loc main_arg3) :=
  (W2_of_ne m ρ c main_arg3 (by decide)).trans (W1_arg3 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W2_arg19 : W2 m ρ c (Proc.devRef .tc main_arg19) = m ((c : Thread nD τ).loc main_arg19) :=
  (W2_of_ne m ρ c main_arg19 (by decide)).trans (W1_arg19 m ρ c)
theorem W2_arg20 : W2 m ρ c (Proc.devRef .tc main_arg20) = m ((c : Thread nD τ).loc main_arg20) :=
  (W2_of_ne m ρ c main_arg20 (by decide)).trans (W1_arg20 m ρ c)
set_option maxHeartbeats 4000000 in
theorem W3_v1 : W3 m ρ c (Proc.devRef .tc main_v1) = Cert.ReferenceIdeal.Read.val_main_v1 (F := Ideal) (m ((c : Thread nD τ).loc main_arg2)) := by
  show StableHlo.after hostOps1 (W2 m ρ c) (Proc.devRef .tc main_v1) = _
  after_results_simp
  exact W2_v1 m ρ c
set_option maxHeartbeats 4000000 in
theorem W3_v3 : W3 m ρ c (Proc.devRef .tc main_v3) = Cert.ReferenceIdeal.Read.val_main_v3 (F := Ideal) (m ((c : Thread nD τ).loc main_arg2)) := by
  show StableHlo.after hostOps1 (W2 m ρ c) (Proc.devRef .tc main_v3) = _
  after_results_simp
  exact W2_v3 m ρ c
set_option maxHeartbeats 4000000 in
theorem W3_v9 : W3 m ρ c (Proc.devRef .tc main_v9) = Cert.ReferenceIdeal.Read.val_main_v27 (F := Ideal) (m ((c : Thread nD τ).loc main_arg2)) := by
  show StableHlo.after hostOps1 (W2 m ρ c) (Proc.devRef .tc main_v9) = _
  after_results_simp
  exact W2_v9 m ρ c
set_option maxHeartbeats 4000000 in
theorem W3_arg3 : W3 m ρ c (Proc.devRef .tc main_arg3) = m ((c : Thread nD τ).loc main_arg3) := by
  show StableHlo.after hostOps1 (W2 m ρ c) (Proc.devRef .tc main_arg3) = _
  after_results_simp
  exact W2_arg3 m ρ c
set_option maxHeartbeats 4000000 in
theorem W3_arg10 : W3 m ρ c (Proc.devRef .tc main_arg10) = m ((c : Thread nD τ).loc main_arg10) := by
  show StableHlo.after hostOps1 (W2 m ρ c) (Proc.devRef .tc main_arg10) = _
  after_results_simp
  exact W2_arg10 m ρ c
set_option maxHeartbeats 4000000 in
theorem W3_arg11 : W3 m ρ c (Proc.devRef .tc main_arg11) = m ((c : Thread nD τ).loc main_arg11) := by
  show StableHlo.after hostOps1 (W2 m ρ c) (Proc.devRef .tc main_arg11) = _
  after_results_simp
  exact W2_arg11 m ρ c
set_option maxHeartbeats 4000000 in
theorem W3_arg12 : W3 m ρ c (Proc.devRef .tc main_arg12) = m ((c : Thread nD τ).loc main_arg12) := by
  show StableHlo.after hostOps1 (W2 m ρ c) (Proc.devRef .tc main_arg12) = _
  after_results_simp
  exact W2_arg12 m ρ c
set_option maxHeartbeats 4000000 in
theorem W3_arg13 : W3 m ρ c (Proc.devRef .tc main_arg13) = m ((c : Thread nD τ).loc main_arg13) := by
  show StableHlo.after hostOps1 (W2 m ρ c) (Proc.devRef .tc main_arg13) = _
  after_results_simp
  exact W2_arg13 m ρ c
set_option maxHeartbeats 4000000 in
theorem W3_arg14 : W3 m ρ c (Proc.devRef .tc main_arg14) = m ((c : Thread nD τ).loc main_arg14) := by
  show StableHlo.after hostOps1 (W2 m ρ c) (Proc.devRef .tc main_arg14) = _
  after_results_simp
  exact W2_arg14 m ρ c
set_option maxHeartbeats 4000000 in
theorem W3_arg15 : W3 m ρ c (Proc.devRef .tc main_arg15) = m ((c : Thread nD τ).loc main_arg15) := by
  show StableHlo.after hostOps1 (W2 m ρ c) (Proc.devRef .tc main_arg15) = _
  after_results_simp
  exact W2_arg15 m ρ c
set_option maxHeartbeats 4000000 in
theorem W3_arg16 : W3 m ρ c (Proc.devRef .tc main_arg16) = m ((c : Thread nD τ).loc main_arg16) := by
  show StableHlo.after hostOps1 (W2 m ρ c) (Proc.devRef .tc main_arg16) = _
  after_results_simp
  exact W2_arg16 m ρ c
set_option maxHeartbeats 4000000 in
theorem W3_arg17 : W3 m ρ c (Proc.devRef .tc main_arg17) = m ((c : Thread nD τ).loc main_arg17) := by
  show StableHlo.after hostOps1 (W2 m ρ c) (Proc.devRef .tc main_arg17) = _
  after_results_simp
  exact W2_arg17 m ρ c
set_option maxHeartbeats 4000000 in
theorem W3_arg18 : W3 m ρ c (Proc.devRef .tc main_arg18) = m ((c : Thread nD τ).loc main_arg18) := by
  show StableHlo.after hostOps1 (W2 m ρ c) (Proc.devRef .tc main_arg18) = _
  after_results_simp
  exact W2_arg18 m ρ c
set_option maxHeartbeats 4000000 in
theorem W3_arg19 : W3 m ρ c (Proc.devRef .tc main_arg19) = m ((c : Thread nD τ).loc main_arg19) := by
  show StableHlo.after hostOps1 (W2 m ρ c) (Proc.devRef .tc main_arg19) = _
  after_results_simp
  exact W2_arg19 m ρ c
set_option maxHeartbeats 4000000 in
theorem W3_arg20 : W3 m ρ c (Proc.devRef .tc main_arg20) = m ((c : Thread nD τ).loc main_arg20) := by
  show StableHlo.after hostOps1 (W2 m ρ c) (Proc.devRef .tc main_arg20) = _
  after_results_simp
  exact W2_arg20 m ρ c
theorem W4_v1 : W4 m ρ c (Proc.devRef .tc main_v1) = Cert.ReferenceIdeal.Read.val_main_v1 (F := Ideal) (m ((c : Thread nD τ).loc main_arg2)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg2)) :=
  (W4_of_ne m ρ c main_v3 (by decide)).trans (W3_v3 m ρ c)
theorem W4_v9 : W4 m ρ c (Proc.devRef .tc main_v9) = Cert.ReferenceIdeal.Read.val_main_v27 (F := Ideal) (m ((c : Thread nD τ).loc main_arg2)) :=
  (W4_of_ne m ρ c main_v9 (by decide)).trans (W3_v9 m ρ c)
theorem W4_arg3 : W4 m ρ c (Proc.devRef .tc main_arg3) = m ((c : Thread nD τ).loc main_arg3) :=
  (W4_of_ne m ρ c main_arg3 (by decide)).trans (W3_arg3 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W4_arg18 : W4 m ρ c (Proc.devRef .tc main_arg18) = m ((c : Thread nD τ).loc main_arg18) :=
  (W4_of_ne m ρ c main_arg18 (by decide)).trans (W3_arg18 m ρ c)
theorem W4_arg19 : W4 m ρ c (Proc.devRef .tc main_arg19) = m ((c : Thread nD τ).loc main_arg19) :=
  (W4_of_ne m ρ c main_arg19 (by decide)).trans (W3_arg19 m ρ c)
theorem W4_arg20 : W4 m ρ c (Proc.devRef .tc main_arg20) = m ((c : Thread nD τ).loc main_arg20) :=
  (W4_of_ne m ρ c main_arg20 (by decide)).trans (W3_arg20 m ρ c)
set_option maxHeartbeats 4000000 in
theorem W5_arg3 : W5 m ρ c (Proc.devRef .tc main_arg3) = m ((c : Thread nD τ).loc main_arg3) := by
  show StableHlo.after hostOps2 (W4 m ρ c) (Proc.devRef .tc main_arg3) = _
  after_results_simp
  exact W4_arg3 m ρ c
set_option maxHeartbeats 4000000 in
theorem W5_arg13 : W5 m ρ c (Proc.devRef .tc main_arg13) = m ((c : Thread nD τ).loc main_arg13) := by
  show StableHlo.after hostOps2 (W4 m ρ c) (Proc.devRef .tc main_arg13) = _
  after_results_simp
  exact W4_arg13 m ρ c
set_option maxHeartbeats 4000000 in
theorem W5_arg14 : W5 m ρ c (Proc.devRef .tc main_arg14) = m ((c : Thread nD τ).loc main_arg14) := by
  show StableHlo.after hostOps2 (W4 m ρ c) (Proc.devRef .tc main_arg14) = _
  after_results_simp
  exact W4_arg14 m ρ c
set_option maxHeartbeats 4000000 in
theorem W5_arg15 : W5 m ρ c (Proc.devRef .tc main_arg15) = m ((c : Thread nD τ).loc main_arg15) := by
  show StableHlo.after hostOps2 (W4 m ρ c) (Proc.devRef .tc main_arg15) = _
  after_results_simp
  exact W4_arg15 m ρ c
set_option maxHeartbeats 4000000 in
theorem W5_arg16 : W5 m ρ c (Proc.devRef .tc main_arg16) = m ((c : Thread nD τ).loc main_arg16) := by
  show StableHlo.after hostOps2 (W4 m ρ c) (Proc.devRef .tc main_arg16) = _
  after_results_simp
  exact W4_arg16 m ρ c
set_option maxHeartbeats 4000000 in
theorem W5_arg17 : W5 m ρ c (Proc.devRef .tc main_arg17) = m ((c : Thread nD τ).loc main_arg17) := by
  show StableHlo.after hostOps2 (W4 m ρ c) (Proc.devRef .tc main_arg17) = _
  after_results_simp
  exact W4_arg17 m ρ c
set_option maxHeartbeats 4000000 in
theorem W5_arg18 : W5 m ρ c (Proc.devRef .tc main_arg18) = m ((c : Thread nD τ).loc main_arg18) := by
  show StableHlo.after hostOps2 (W4 m ρ c) (Proc.devRef .tc main_arg18) = _
  after_results_simp
  exact W4_arg18 m ρ c
set_option maxHeartbeats 4000000 in
theorem W5_arg19 : W5 m ρ c (Proc.devRef .tc main_arg19) = m ((c : Thread nD τ).loc main_arg19) := by
  show StableHlo.after hostOps2 (W4 m ρ c) (Proc.devRef .tc main_arg19) = _
  after_results_simp
  exact W4_arg19 m ρ c
set_option maxHeartbeats 4000000 in
theorem W5_arg20 : W5 m ρ c (Proc.devRef .tc main_arg20) = m ((c : Thread nD τ).loc main_arg20) := by
  show StableHlo.after hostOps2 (W4 m ρ c) (Proc.devRef .tc main_arg20) = _
  after_results_simp
  exact W4_arg20 m ρ c
theorem W6_arg3 : W6 m ρ c (Proc.devRef .tc main_arg3) = m ((c : Thread nD τ).loc main_arg3) :=
  (W6_of_ne m ρ c main_arg3 (by decide)).trans (W5_arg3 m ρ c)
theorem W6_arg13 : W6 m ρ c (Proc.devRef .tc main_arg13) = m ((c : Thread nD τ).loc main_arg13) :=
  (W6_of_ne m ρ c main_arg13 (by decide)).trans (W5_arg13 m ρ c)
theorem W6_arg14 : W6 m ρ c (Proc.devRef .tc main_arg14) = m ((c : Thread nD τ).loc main_arg14) :=
  (W6_of_ne m ρ c main_arg14 (by decide)).trans (W5_arg14 m ρ c)
theorem W6_arg15 : W6 m ρ c (Proc.devRef .tc main_arg15) = m ((c : Thread nD τ).loc main_arg15) :=
  (W6_of_ne m ρ c main_arg15 (by decide)).trans (W5_arg15 m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)
theorem W6_arg18 : W6 m ρ c (Proc.devRef .tc main_arg18) = m ((c : Thread nD τ).loc main_arg18) :=
  (W6_of_ne m ρ c main_arg18 (by decide)).trans (W5_arg18 m ρ c)
theorem W6_arg19 : W6 m ρ c (Proc.devRef .tc main_arg19) = m ((c : Thread nD τ).loc main_arg19) :=
  (W6_of_ne m ρ c main_arg19 (by decide)).trans (W5_arg19 m ρ c)
theorem W6_arg20 : W6 m ρ c (Proc.devRef .tc main_arg20) = m ((c : Thread nD τ).loc main_arg20) :=
  (W6_of_ne m ρ c main_arg20 (by decide)).trans (W5_arg20 m ρ c)

end Cert.KernelIdeal.Carry

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibSageRows.lean ====
/-
  A message-passing layer on rows, read at one entry.

  Every node row of the layer's output is the aggregated-neighbour row times one weight matrix, plus the node's own row
  times a second weight matrix, plus a bias row, perhaps clamped from below at zero.  Entry (p, c) depends on row p of the
  two left operands, column c of the two weight matrices and entry c of the bias only, so one formula describes a block of
  rows and the whole array alike.  The formula is stated once over arbitrary extents and shown to be what two spellings
  compute at the ideal instance: two products accumulated into zero arrays of operands passed through a change of float
  format, added, then the bias (a one-row matrix repeated down the rows) added; and a general product with the bias row
  added, then the second general product added.  The two differ by the order in which the three summands are added, and
  addition of extended reals is commutative and associative.
-/
import proofs.«115719_j12601434046587_2_alg».proof.Proof.LibMatRows
import proofs.«115719_j12601434046587_2_alg».proof.Proof.LibHostLayout
import Idealize.ShloMosaic.Lib.ValueLayout
import Idealize.ShloMosaic.Lib.Pipeline.Value

noncomputable section

open scoped BigOperators

namespace Idealize.ShloMosaic.SageRows

open Idealize.ShloMosaic Idealize.ShloMosaic.ValueIdx Idealize.ShloMosaic.MatRows

variable {M K N : Nat}

/-- Entry (p, c) of a layer before any clamp: row p of A against column c of Wl, row p of X against column c of Wr,
    and entry c of the bias. -/
def sageAt (A X : (⟨2, ![M, K]⟩ : Shape).Idx → EReal) (Wl Wr : (⟨2, ![K, N]⟩ : Shape).Idx → EReal) (b : Fin N → EReal)
    (p : Fin M) (c : Fin N) : EReal :=
  ((∑ k : Fin K, A (ix2 p k) * Wl (ix2 k c)) + ∑ k : Fin K, X (ix2 p k) * Wr (ix2 k c)) + b c

/-- The formula depends on the operands through the entries it names only. -/
theorem sageAt_congr {M' : Nat} {A X : (⟨2, ![M, K]⟩ : Shape).Idx → EReal} {A' X' : (⟨2, ![M', K]⟩ : Shape).Idx → EReal}
    {Wl Wr Wl' Wr' : (⟨2, ![K, N]⟩ : Shape).Idx → EReal} {b b' : Fin N → EReal} {p : Fin M} {p' : Fin M'} {c : Fin N}
    (hA : ∀ k : Fin K, A (ix2 p k) = A' (ix2 p' k)) (hX : ∀ k : Fin K, X (ix2 p k) = X' (ix2 p' k))
    (hWl : ∀ k : Fin K, Wl (ix2 k c) = Wl' (ix2 k c)) (hWr : ∀ k : Fin K, Wr (ix2 k c) = Wr' (ix2 k c)) (hb : b c = b' c) :
    sageAt A X Wl Wr b p c = sageAt A' X' Wl' Wr' b' p' c := by
  unfold sageAt
  rw [hb]
  refine congrArg (· + b' c) (congrArg₂ (· + ·) ?_ ?_)
  · exact Finset.sum_congr rfl fun k _ => by rw [hA k, hWl k]
  · exact Finset.sum_congr rfl fun k _ => by rw [hX k, hWr k]

/-! ## The kernel's spelling -/

/-- Two products into zero arrays of operands passed through a change of format, added, a one-row bias repeated down the
    rows added. -/
theorem kernel_sage_apply (ht : FTy.bf16.bits < FTy.f32.bits) (hb : (⟨2, ![1, N]⟩ : Shape).Broadcasts ⟨2, ![M, N]⟩)
    (x0 x1 : FVec Ideal ⟨2, ![M, K]⟩ .f32) (x2 x3 : FVec Ideal ⟨2, ![K, N]⟩ .f32) (x4 : FVec Ideal ⟨2, ![1, N]⟩ .f32)
    (p : Fin M) (c : Fin N) :
    addf (addf
          (matmul (DotDims.plain M K N) none (truncf .bf16 x0 ht) (truncf .bf16 x2 ht)
            (constant (F := Ideal) ⟨2, ![M, N]⟩ .f32 0x00000000#32))
          (matmul (DotDims.plain M K N) none (truncf .bf16 x1 ht) (truncf .bf16 x3 ht)
            (constant (F := Ideal) ⟨2, ![M, N]⟩ .f32 0x00000000#32)))
        (broadcastTo ⟨2, ![M, N]⟩ x4 hb) (ix2 p c)
      = sageAt x0 x1 x2 x3 (fun q => x4 (ix2 (0 : Fin 1) q)) p c := by
  show (matmul (DotDims.plain M K N) none _ _ _ (ix2 p c) + matmul (DotDims.plain M K N) none _ _ _ (ix2 p c))
      + broadcastTo ⟨2, ![M, N]⟩ x4 hb (ix2 p c) = _
  rw [broadcastTo_1b_ab_apply]
  exact congrArg (· + x4 (ix2 (0 : Fin 1) c))
    (congrArg₂ (· + ·) (matmul_plain_apply none _ _ p c) (matmul_plain_apply none _ _ p c))

/-! ## The host's spelling -/

/-- The layer on whole arrays as the host spells it: a general product, the bias row repeated down the rows added, the
    second general product added. -/
def layerArr (h2 : (⟨2, ![1, N]⟩ : Shape).BroadcastsInDim ⟨2, ![M, N]⟩ (![0, 1] : Fin 2 → Fin 2))
    (A X : FVec Ideal ⟨2, ![M, K]⟩ .f32) (Wl Wr : FVec Ideal ⟨2, ![K, N]⟩ .f32) (b2 : FVec Ideal ⟨2, ![1, N]⟩ .f32) :
    FVec Ideal ⟨2, ![M, N]⟩ .f32 :=
  addf (addf (Host.dotGeneral (F := Ideal) (DotDims.plain M K N) none A Wl : FVec Ideal ⟨2, ![M, N]⟩ .f32)
        (broadcastInDim ⟨2, ![M, N]⟩ ![0, 1] h2 b2))
    (Host.dotGeneral (F := Ideal) (DotDims.plain M K N) none X Wr : FVec Ideal ⟨2, ![M, N]⟩ .f32)

/-- The clamp from below at zero on a whole array as the host spells it: the maximum with the zero scalar broadcast. -/
def reluArr (h0 : (⟨0, ![]⟩ : Shape).BroadcastsInDim ⟨2, ![M, N]⟩ (![] : Fin 0 → Fin 2))
    (v : FVec Ideal ⟨2, ![M, N]⟩ .f32) : FVec Ideal ⟨2, ![M, N]⟩ .f32 :=
  maximumf v (broadcastInDim ⟨2, ![M, N]⟩ ![] h0 (constant (F := Ideal) ⟨0, ![]⟩ .f32 0x00000000#32))

theorem layerArr_apply (h2 : (⟨2, ![1, N]⟩ : Shape).BroadcastsInDim ⟨2, ![M, N]⟩ (![0, 1] : Fin 2 → Fin 2))
    (A X : FVec Ideal ⟨2, ![M, K]⟩ .f32) (Wl Wr : FVec Ideal ⟨2, ![K, N]⟩ .f32) (b2 : FVec Ideal ⟨2, ![1, N]⟩ .f32)
    (p : Fin M) (c : Fin N) :
    layerArr h2 A X Wl Wr b2 (ix2 p c) = sageAt A X Wl Wr (fun q => b2 (ix2 (0 : Fin 1) q)) p c := by
  show ((Host.dotGeneral (F := Ideal) (DotDims.plain M K N) none A Wl : FVec Ideal ⟨2, ![M, N]⟩ .f32) (ix2 p c)
        + broadcastInDim ⟨2, ![M, N]⟩ ![0, 1] h2 b2 (ix2 p c))
      + (Host.dotGeneral (F := Ideal) (DotDims.plain M K N) none X Wr : FVec Ideal ⟨2, ![M, N]⟩ .f32) (ix2 p c) = _
  rw [Cert.HostLayout.bcast_cols_apply, dotGeneral_plain_apply, dotGeneral_plain_apply]
  exact add_right_comm _ _ _

theorem reluArr_apply (h0 : (⟨0, ![]⟩ : Shape).BroadcastsInDim ⟨2, ![M, N]⟩ (![] : Fin 0 → Fin 2))
    (v : FVec Ideal ⟨2, ![M, N]⟩ .f32) (j : (⟨2, ![M, N]⟩ : Shape).Idx) :
    reluArr h0 v j = FloatOps.maximumf (F := Ideal) (φ := .f32) (v j) (Scalar.ofBits (F := Ideal) .f32 0x00000000#32) := by
  show FloatOps.maximumf (F := Ideal) (φ := .f32) (v j)
      (broadcastInDim ⟨2, ![M, N]⟩ ![] h0 (constant (F := Ideal) ⟨0, ![]⟩ .f32 0x00000000#32) j) = _
  rw [Cert.HostLayout.bcast_scalar_apply]
  rfl

/-! ## A block of rows against the whole array -/

/-- Row r of a block of Mb rows is row n of the whole array of Mt rows: then entry (r, q) of what the kernel computes on
    the block, clamped, is entry (n, q) of the host's clamped layer on the whole arrays. -/
theorem block_entry_relu {Mb Mt : Nat} (ht : FTy.bf16.bits < FTy.f32.bits)
    (hb : (⟨2, ![1, N]⟩ : Shape).Broadcasts ⟨2, ![Mb, N]⟩)
    (h2 : (⟨2, ![1, N]⟩ : Shape).BroadcastsInDim ⟨2, ![Mt, N]⟩ (![0, 1] : Fin 2 → Fin 2))
    (h0 : (⟨0, ![]⟩ : Shape).BroadcastsInDim ⟨2, ![Mt, N]⟩ (![] : Fin 0 → Fin 2))
    (x0 x1 : FVec Ideal ⟨2, ![Mb, K]⟩ .f32) (x2 x3 : FVec Ideal ⟨2, ![K, N]⟩ .f32) (x4 : FVec Ideal ⟨2, ![1, N]⟩ .f32)
    (A X : FVec Ideal ⟨2, ![Mt, K]⟩ .f32) (Wl Wr : FVec Ideal ⟨2, ![K, N]⟩ .f32) (b2 : FVec Ideal ⟨2, ![1, N]⟩ .f32)
    (r : Fin Mb) (n : Fin Mt) (q : Fin N)
    (hA : ∀ k : Fin K, x0 (ix2 r k) = A (ix2 n k)) (hX : ∀ k : Fin K, x1 (ix2 r k) = X (ix2 n k))
    (hWl : ∀ k : Fin K, x2 (ix2 k q) = Wl (ix2 k q)) (hWr : ∀ k : Fin K, x3 (ix2 k q) = Wr (ix2 k q))
    (hbq : x4 (ix2 (0 : Fin 1) q) = b2 (ix2 (0 : Fin 1) q)) :
    maximumf (addf (addf
          (matmul (DotDims.plain Mb K N) none (truncf .bf16 x0 ht) (truncf .bf16 x2 ht)
            (constant (F := Ideal) ⟨2, ![Mb, N]⟩ .f32 0x00000000#32))
          (matmul (DotDims.plain Mb K N) none (truncf .bf16 x1 ht) (truncf .bf16 x3 ht)
            (constant (F := Ideal) ⟨2, ![Mb, N]⟩ .f32 0x00000000#32)))
        (broadcastTo ⟨2, ![Mb, N]⟩ x4 hb))
      (broadcast ⟨2, ![Mb, N]⟩ (Scalar.ofBits (F := Ideal) .f32 0x00000000#32)) (ix2 r q)
      = reluArr h0 (layerArr h2 A X Wl Wr b2) (ix2 n q) := by
  rw [reluArr_apply, layerArr_apply]
  show FloatOps.maximumf (F := Ideal) (φ := .f32)
      (addf (addf (matmul (DotDims.plain Mb K N) none _ _ _) (matmul (DotDims.plain Mb K N) none _ _ _))
        (broadcastTo ⟨2, ![Mb, N]⟩ x4 hb) (ix2 r q)) _ = _
  rw [kernel_sage_apply]
  exact congrArg (fun v => FloatOps.maximumf (F := Ideal) (φ := .f32) v (Scalar.ofBits (F := Ideal) .f32 0x00000000#32))
    (sageAt_congr hA hX hWl hWr hbq)

/-- The same without the clamp. -/
theorem block_entry {Mb Mt : Nat} (ht : FTy.bf16.bits < FTy.f32.bits)
    (hb : (⟨2, ![1, N]⟩ : Shape).Broadcasts ⟨2, ![Mb, N]⟩)
    (h2 : (⟨2, ![1, N]⟩ : Shape).BroadcastsInDim ⟨2, ![Mt, N]⟩ (![0, 1] : Fin 2 → Fin 2))
    (x0 x1 : FVec Ideal ⟨2, ![Mb, K]⟩ .f32) (x2 x3 : FVec Ideal ⟨2, ![K, N]⟩ .f32) (x4 : FVec Ideal ⟨2, ![1, N]⟩ .f32)
    (A X : FVec Ideal ⟨2, ![Mt, K]⟩ .f32) (Wl Wr : FVec Ideal ⟨2, ![K, N]⟩ .f32) (b2 : FVec Ideal ⟨2, ![1, N]⟩ .f32)
    (r : Fin Mb) (n : Fin Mt) (q : Fin N)
    (hA : ∀ k : Fin K, x0 (ix2 r k) = A (ix2 n k)) (hX : ∀ k : Fin K, x1 (ix2 r k) = X (ix2 n k))
    (hWl : ∀ k : Fin K, x2 (ix2 k q) = Wl (ix2 k q)) (hWr : ∀ k : Fin K, x3 (ix2 k q) = Wr (ix2 k q))
    (hbq : x4 (ix2 (0 : Fin 1) q) = b2 (ix2 (0 : Fin 1) q)) :
    addf (addf
          (matmul (DotDims.plain Mb K N) none (truncf .bf16 x0 ht) (truncf .bf16 x2 ht)
            (constant (F := Ideal) ⟨2, ![Mb, N]⟩ .f32 0x00000000#32))
          (matmul (DotDims.plain Mb K N) none (truncf .bf16 x1 ht) (truncf .bf16 x3 ht)
            (constant (F := Ideal) ⟨2, ![Mb, N]⟩ .f32 0x00000000#32)))
        (broadcastTo ⟨2, ![Mb, N]⟩ x4 hb) (ix2 r q)
      = layerArr h2 A X Wl Wr b2 (ix2 n q) := by
  rw [layerArr_apply, kernel_sage_apply]
  exact sageAt_congr hA hX hWl hWr hbq

end Idealize.ShloMosaic.SageRows

end
-- ==== Proof.Region0Value.lean ====
/-
  Kernel region 0: the array its output window leaves, as one function of the arrays the region finds.

  The region runs over ten grid points; point t reads rows 10000·t … 10000·t + 9999 of the aggregated-neighbour array
  and of the node array, the two weight matrices and the bias row whole, and writes rows 10000·t … 10000·t + 9999 of
  the output.  Entry (r, q) of the block it writes is entry (10000·t + r, q) of the layer on the whole arrays, because
  a row of the layer depends on the same row of the two left operands only.  The ten blocks tile the output array, so
  after the region the array is the layer of the whole arrays.
-/
import proofs.«115719_j12601434046587_2_alg».proof.Proof.Gen.KernelIdeal.Frame
import proofs.«115719_j12601434046587_2_alg».proof.Proof.LibSageRows

set_option maxRecDepth 16384

noncomputable section

namespace Cert.KernelIdeal.Hand0

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.SageRows

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of what the body computes from its blocks is entry (n, q) of the layer on whole arrays, when row r of
    the two left blocks is row n of the two left arrays and the weights and the bias are read whole. -/
theorem pay_entry (h2 : S1x64.BroadcastsInDim S100000x64 (![0, 1] : Fin 2 → Fin 2)) (h0 : S_.BroadcastsInDim S100000x64 (![] : Fin 0 → Fin 2))
    (x0 x1 : Vec Ideal S10000x13 .f32) (x2 x3 : Vec Ideal S13x64 .f32) (x4 : Vec Ideal S1x64 .f32)
    (A X : FVec Ideal S100000x13 .f32) (Wl Wr : FVec Ideal S13x64 .f32) (b2 : FVec Ideal S1x64 .f32)
    (r : Fin 10000) (n : Fin 100000) (q : Fin 64)
    (hA : ∀ k : Fin 13, x0 (ix2 r k) = A (ix2 n k)) (hX : ∀ k : Fin 13, x1 (ix2 r k) = X (ix2 n k))
    (hWl : ∀ k : Fin 13, x2 (ix2 k q) = Wl (ix2 k q)) (hWr : ∀ k : Fin 13, x3 (ix2 k q) = Wr (ix2 k q))
    (hbq : x4 (ix2 (0 : Fin 1) q) = b2 (ix2 (0 : Fin 1) q)) :
    k0_pay1 x0 x1 x2 x3 x4 (ix2 r q) = (reluArr h0 (layerArr h2 A X Wl Wr b2)) (ix2 n q) := by
  unfold k0_pay1
  simp only [shapeCast_self]
  exact block_entry_relu bitsLt_bf16_f32 broadcasts_S1x64_S10000x64 h2 h0 x0 x1 x2 x3 x4 A X Wl Wr b2 r n q hA hX hWl hWr hbq

/-- The printed index maps, decided over the grid: the row windows and the output move with the point, the weights
    and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 10 :=
  (by decide +kernel : ∀ t : Fin grid0.N, _)

/-- Row r of the aggregated block at point t is row 10000·t + r of the array. -/
theorem blk0_apply (c : Dev nD) (t : Fin cfg0.N) (r : Fin 10000) (k : Fin 13) (n : Fin 100000)
    (hn : n.val = 10000 * t.val + r.val) :
    (iblk0 V c 0 t : Vec Ideal S10000x13 .f32) (ix2 r k) = (V c main_v29 : S100000x13.Idx → EReal) (ix2 n k) := by
  obtain ⟨e0, e1, -⟩ := idx_facts t
  unfold iblk0
  rw [View.read_apply]
  show (V c main_v29 : S100000x13.Idx → EReal) _ = _
  congr 1
  funext a
  apply Fin.ext
  match a with
  | ⟨0, _⟩ => show win0_0.index t (0 : Fin 2) * 10000 + 1 * r.val = n.val; rw [e0, hn]; omega
  | ⟨1, _⟩ => show win0_0.index t (1 : Fin 2) * 13 + 1 * k.val = k.val; rw [e1]; omega

/-- Row r of the node block at point t is row 10000·t + r of the array. -/
theorem blk1_apply (c : Dev nD) (t : Fin cfg0.N) (r : Fin 10000) (k : Fin 13) (n : Fin 100000)
    (hn : n.val = 10000 * t.val + r.val) :
    (iblk0 V c 1 t : Vec Ideal S10000x13 .f32) (ix2 r k) = (V c main_v17 : S100000x13.Idx → EReal) (ix2 n k) := by
  obtain ⟨-, -, e0, e1, -⟩ := idx_facts t
  unfold iblk0
  rw [View.read_apply]
  show (V c main_v17 : S100000x13.Idx → EReal) _ = _
  congr 1
  funext a
  apply Fin.ext
  match a with
  | ⟨0, _⟩ => show win0_1.index t (0 : Fin 2) * 10000 + 1 * r.val = n.val; rw [e0, hn]; omega
  | ⟨1, _⟩ => show win0_1.index t (1 : Fin 2) * 13 + 1 * k.val = k.val; rw [e1]; omega

/-- The neighbour weights are read whole at every point. -/
theorem blk2_apply (c : Dev nD) (t : Fin cfg0.N) (k : Fin 13) (q : Fin 64) :
    (iblk0 V c 2 t : Vec Ideal S13x64 .f32) (ix2 k q) = (V c main_v30 : S13x64.Idx → EReal) (ix2 k q) := by
  obtain ⟨-, -, -, -, e0, e1, -⟩ := idx_facts t
  unfold iblk0
  rw [View.read_apply]
  show (V c main_v30 : S13x64.Idx → EReal) _ = _
  congr 1
  funext a
  apply Fin.ext
  match a with
  | ⟨0, _⟩ => show win0_2.index t (0 : Fin 2) * 13 + 1 * k.val = k.val; rw [e0]; omega
  | ⟨1, _⟩ => show win0_2.index t (1 : Fin 2) * 64 + 1 * q.val = q.val; rw [e1]; omega

/-- The root weights are read whole at every point. -/
theorem blk3_apply (c : Dev nD) (t : Fin cfg0.N) (k : Fin 13) (q : Fin 64) :
    (iblk0 V c 3 t : Vec Ideal S13x64 .f32) (ix2 k q) = (V c main_v31 : S13x64.Idx → EReal) (ix2 k q) := by
  obtain ⟨-, -, -, -, -, -, e0, e1, -⟩ := idx_facts t
  unfold iblk0
  rw [View.read_apply]
  show (V c main_v31 : S13x64.Idx → EReal) _ = _
  congr 1
  funext a
  apply Fin.ext
  match a with
  | ⟨0, _⟩ => show win0_3.index t (0 : Fin 2) * 13 + 1 * k.val = k.val; rw [e0]; omega
  | ⟨1, _⟩ => show win0_3.index t (1 : Fin 2) * 64 + 1 * q.val = q.val; rw [e1]; omega

/-- The bias row is read whole at every point. -/
theorem blk4_apply (c : Dev nD) (t : Fin cfg0.N) (q : Fin 64) :
    (iblk0 V c 4 t : Vec Ideal S1x64 .f32) (ix2 (0 : Fin 1) q) = (V c main_v32 : S1x64.Idx → EReal) (ix2 (0 : Fin 1) q) := by
  obtain ⟨-, -, -, -, -, -, -, -, e0, e1, -⟩ := idx_facts t
  unfold iblk0
  rw [View.read_apply]
  show (V c main_v32 : S1x64.Idx → EReal) _ = _
  congr 1
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- What point t writes back is block t of the layer on the whole arrays the region finds. -/
theorem flushed_eq (h2 : S1x64.BroadcastsInDim S100000x64 (![0, 1] : Fin 2 → Fin 2)) (h0 : S_.BroadcastsInDim S100000x64 (![] : Fin 0 → Fin 2))
    (c : Dev nD) (t : Fin cfg0.N) :
    (dat0 V c).flushed 5 t = ((cfg0.win 5).blk t).view.read (Elt Ideal)
      (reluArr h0 (layerArr h2 (V c (Pipeline.arrRef spec0 0)) (V c (Pipeline.arrRef spec0 1)) (V c (Pipeline.arrRef spec0 2)) (V c (Pipeline.arrRef spec0 3)) (V c (Pipeline.arrRef spec0 4)))) := by
  show (cfg0.win 5).cut (grid0.coords t) ((dat0 V c).after 5 t) = _
  rw [after0_5]
  unfold out0_5
  rw [View.canon_unit_zero hz]
  simp only [View.ld_unit_zero (S := S10000x13) hz, View.ld_unit_zero (S := S13x64) hz, View.ld_unit_zero (S := S1x64) hz]
  funext j
  obtain ⟨r, q, rfl⟩ : ∃ (r : Fin 10000) (q : Fin 64), j = ix2 r q := ⟨j 0, j 1, eq_ix2 j⟩
  obtain ⟨-, -, -, -, -, -, -, -, -, -, e50, e51, ht⟩ := idx_facts t
  rw [View.read_apply]
  have hlt : 10000 * t.val + r.val < 100000 := by have := r.isLt; omega
  have hemb : ((cfg0.win 5).blk t).view.emb (ix2 r q) = ix2 (⟨10000 * t.val + r.val, hlt⟩ : Fin 100000) q := by
    funext a
    apply Fin.ext
    match a with
    | ⟨0, _⟩ => show win0_5.index t (0 : Fin 2) * 10000 + 1 * r.val = 10000 * t.val + r.val; rw [e50]; omega
    | ⟨1, _⟩ => show win0_5.index t (1 : Fin 2) * 64 + 1 * q.val = q.val; rw [e51]; omega
  rw [hemb]
  exact pay_entry h2 h0 (iblk0 V c 0 t) (iblk0 V c 1 t) (iblk0 V c 2 t) (iblk0 V c 3 t) (iblk0 V c 4 t)
    (V c main_v29) (V c main_v17) (V c main_v30) (V c main_v31) (V c main_v32) r ⟨10000 * t.val + r.val, hlt⟩ q
    (fun k => blk0_apply V c t r k _ rfl) (fun k => blk1_apply V c t r k _ rfl)
    (fun k => blk2_apply V c t k q) (fun k => blk3_apply V c t k q) (blk4_apply V c t q)

/-- Every entry of the output array is in the block of the point that owns its row. -/
theorem cover (c : Dev nD) (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := rfl
  let t : Fin cfg0.N := ⟨(i 0).val / 10000, by rw [hN]; omega⟩
  refine ⟨t, flush0_5 t, ?_⟩
  obtain ⟨-, -, -, -, -, -, -, -, -, -, e50, e51, -⟩ := idx_facts t
  show i ∈ ((View.whole main_v33).slice (win0_5.rect t)).set
  rw [View.set_slice_whole, Rect.mem_set_unit]
  intro a
  have htv : t.val = (i 0).val / 10000 := rfl
  match a with
  | ⟨0, _⟩ =>
    show win0_5.index t (0 : Fin 2) * 10000 ≤ (i 0).val ∧ (i 0).val < win0_5.index t (0 : Fin 2) * 10000 + 10000
    rw [e50, htv]; omega
  | ⟨1, _⟩ =>
    show win0_5.index t (1 : Fin 2) * 64 ≤ (i 1).val ∧ (i 1).val < win0_5.index t (1 : Fin 2) * 64 + 64
    rw [e51]; omega

/-- After the region the output array is the layer of the whole arrays the region finds. -/
theorem arr (h2 : S1x64.BroadcastsInDim S100000x64 (![0, 1] : Fin 2 → Fin 2)) (h0 : S_.BroadcastsInDim S100000x64 (![] : Fin 0 → Fin 2)) (c : Dev nD) :
    (dat0 V c).arrAt 5 cfg0.N = (reluArr h0 (layerArr h2 (V c (Pipeline.arrRef spec0 0)) (V c (Pipeline.arrRef spec0 1)) (V c (Pipeline.arrRef spec0 2)) (V c (Pipeline.arrRef spec0 3)) (V c (Pipeline.arrRef spec0 4)))) :=
  (dat0 V c).arrAt_eq_of_cover 5 _ (fun t _ => flushed_eq V h2 h0 c t) (cover c)

end Cert.KernelIdeal.Hand0

end
-- ==== Proof.ChainB.lean ====
/-
  The first layer and the stretch after it.

  Region 0 finds the mean of the neighbours' rows, the node rows, the two transposed weight matrices and the bias row, each
  the reference's stage of the launch arguments, and leaves the clamped layer of them: the reference's first layer.  The
  host operations that follow gather that layer's rows along the edges, add them up at the edges' ends and divide by the
  degree, and transpose the next weights: again the reference's stages.
-/
import proofs.«115719_j12601434046587_2_alg».proof.Proof.Gen.KernelIdeal.Frame
import proofs.«115719_j12601434046587_2_alg».proof.Proof.Gen.ReferenceIdeal.Read
import proofs.«115719_j12601434046587_2_alg».proof.Proof.ChainA
import proofs.«115719_j12601434046587_2_alg».proof.Proof.Carry
import proofs.«115719_j12601434046587_2_alg».proof.Proof.Region0Value

set_option maxRecDepth 16384

noncomputable section

namespace Cert.KernelIdeal.ChainB

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

open Idealize.ShloMosaic.SageRows

set_option maxHeartbeats 4000000 in
/-- Region 0 leaves the layer of what it finds; what it finds are the reference's stages; so it leaves the reference's
    next stage. -/
theorem W2_v33 : W2 m ρ c (Proc.devRef .tc main_v33) = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 5).trans ?_
  refine (Cert.KernelIdeal.Hand0.arr (V1 m ρ) Cert.ReferenceIdeal.Facts₀.bcast_S1x64_S100000x64_0_1 Cert.KernelIdeal.Facts₀.bcast_S_S100000x64 c).trans ?_
  show reluArr _ (layerArr _ (W1 m ρ c (Proc.devRef .tc main_v29)) (W1 m ρ c (Proc.devRef .tc main_v17)) (W1 m ρ c (Proc.devRef .tc main_v30)) (W1 m ρ c (Proc.devRef .tc main_v31)) (W1 m ρ c (Proc.devRef .tc main_v32))) = _
  rw [ChainA.V1_v29 m ρ c, ChainA.V1_v17 m ρ c, ChainA.V1_v30 m ρ c, ChainA.V1_v31 m ρ c, ChainA.V1_v32 m ρ c]
  rfl
set_option maxHeartbeats 4000000 in
theorem W3_v45 : W3 m ρ c (Proc.devRef .tc main_v45) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v45) = _
  after_results_simp
  rw [W2_v33 m ρ c, Carry.W2_v1 m ρ c, Carry.W2_v3 m ρ c, Carry.W2_v9 m ρ c]
  rfl
set_option maxHeartbeats 4000000 in
theorem W3_v33 : W3 m ρ c (Proc.devRef .tc main_v33) = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v33) = _
  after_results_simp
  exact W2_v33 m ρ c
set_option maxHeartbeats 4000000 in
theorem W3_v46 : W3 m ρ c (Proc.devRef .tc main_v46) = Cert.ReferenceIdeal.Read.val_main_v57 (F := Ideal) (m ((c : Thread nD τ).loc main_arg7)) := by
  show StableHlo.after hostOps1 (W2 m ρ c) (Proc.devRef .tc main_v46) = _
  after_results_simp
  rw [Carry.W2_arg7 m ρ c]
  rfl
set_option maxHeartbeats 4000000 in
theorem W3_v47 : W3 m ρ c (Proc.devRef .tc main_v47) = Cert.ReferenceIdeal.Read.val_main_v62 (F := Ideal) (m ((c : Thread nD τ).loc main_arg9)) := by
  show StableHlo.after hostOps1 (W2 m ρ c) (Proc.devRef .tc main_v47) = _
  after_results_simp
  rw [Carry.W2_arg9 m ρ c]
  rfl
set_option maxHeartbeats 4000000 in
theorem W3_v48 : W3 m ρ c (Proc.devRef .tc main_v48) = Cert.ReferenceIdeal.Read.val_main_v59 (F := Ideal) (m ((c : Thread nD τ).loc main_arg8)) := by
  show StableHlo.after hostOps1 (W2 m ρ c) (Proc.devRef .tc main_v48) = _
  after_results_simp
  rw [Carry.W2_arg8 m ρ c]
  exact ChainA.reshape_row_eq_bcast _ _ _

end Cert.KernelIdeal.ChainB

end
-- ==== Proof.Region1Value.lean ====
/-
  Kernel region 1: the array its output window leaves, as one function of the arrays the region finds.

  The region runs over ten grid points; point t reads rows 10000·t … 10000·t + 9999 of the aggregated-neighbour array
  and of the node array, the two weight matrices and the bias row whole, and writes rows 10000·t … 10000·t + 9999 of
  the output.  Entry (r, q) of the block it writes is entry (10000·t + r, q) of the layer on the whole arrays, because
  a row of the layer depends on the same row of the two left operands only.  The ten blocks tile the output array, so
  after the region the array is the layer of the whole arrays.
-/
import proofs.«115719_j12601434046587_2_alg».proof.Proof.Gen.KernelIdeal.Frame
import proofs.«115719_j12601434046587_2_alg».proof.Proof.LibSageRows

set_option maxRecDepth 16384

noncomputable section

namespace Cert.KernelIdeal.Hand1

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.SageRows

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of what the body computes from its blocks is entry (n, q) of the layer on whole arrays, when row r of
    the two left blocks is row n of the two left arrays and the weights and the bias are read whole. -/
theorem pay_entry (h2 : S1x64.BroadcastsInDim S100000x64 (![0, 1] : Fin 2 → Fin 2)) (h0 : S_.BroadcastsInDim S100000x64 (![] : Fin 0 → Fin 2))
    (x0 x1 : Vec Ideal S10000x64 .f32) (x2 x3 : Vec Ideal S64x64 .f32) (x4 : Vec Ideal S1x64 .f32)
    (A X : FVec Ideal S100000x64 .f32) (Wl Wr : FVec Ideal S64x64 .f32) (b2 : FVec Ideal S1x64 .f32)
    (r : Fin 10000) (n : Fin 100000) (q : Fin 64)
    (hA : ∀ k : Fin 64, x0 (ix2 r k) = A (ix2 n k)) (hX : ∀ k : Fin 64, x1 (ix2 r k) = X (ix2 n k))
    (hWl : ∀ k : Fin 64, x2 (ix2 k q) = Wl (ix2 k q)) (hWr : ∀ k : Fin 64, x3 (ix2 k q) = Wr (ix2 k q))
    (hbq : x4 (ix2 (0 : Fin 1) q) = b2 (ix2 (0 : Fin 1) q)) :
    k1_pay1 x0 x1 x2 x3 x4 (ix2 r q) = (reluArr h0 (layerArr h2 A X Wl Wr b2)) (ix2 n q) := by
  unfold k1_pay1
  simp only [shapeCast_self]
  exact block_entry_relu bitsLt_bf16_f32 broadcasts_S1x64_S10000x64 h2 h0 x0 x1 x2 x3 x4 A X Wl Wr b2 r n q hA hX hWl hWr hbq

/-- The printed index maps, decided over the grid: the row windows and the output move with the point, the weights
    and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 10 :=
  (by decide +kernel : ∀ t : Fin grid1.N, _)

/-- Row r of the aggregated block at point t is row 10000·t + r of the array. -/
theorem blk0_apply (c : Dev nD) (t : Fin cfg1.N) (r : Fin 10000) (k : Fin 64) (n : Fin 100000)
    (hn : n.val = 10000 * t.val + r.val) :
    (iblk1 V c 0 t : Vec Ideal S10000x64 .f32) (ix2 r k) = (V c main_v45 : S100000x64.Idx → EReal) (ix2 n k) := by
  obtain ⟨e0, e1, -⟩ := idx_facts t
  unfold iblk1
  rw [View.read_apply]
  show (V c main_v45 : S100000x64.Idx → EReal) _ = _
  congr 1
  funext a
  apply Fin.ext
  match a with
  | ⟨0, _⟩ => show win1_0.index t (0 : Fin 2) * 10000 + 1 * r.val = n.val; rw [e0, hn]; omega
  | ⟨1, _⟩ => show win1_0.index t (1 : Fin 2) * 64 + 1 * k.val = k.val; rw [e1]; omega

/-- Row r of the node block at point t is row 10000·t + r of the array. -/
theorem blk1_apply (c : Dev nD) (t : Fin cfg1.N) (r : Fin 10000) (k : Fin 64) (n : Fin 100000)
    (hn : n.val = 10000 * t.val + r.val) :
    (iblk1 V c 1 t : Vec Ideal S10000x64 .f32) (ix2 r k) = (V c main_v33 : S100000x64.Idx → EReal) (ix2 n k) := by
  obtain ⟨-, -, e0, e1, -⟩ := idx_facts t
  unfold iblk1
  rw [View.read_apply]
  show (V c main_v33 : S100000x64.Idx → EReal) _ = _
  congr 1
  funext a
  apply Fin.ext
  match a with
  | ⟨0, _⟩ => show win1_1.index t (0 : Fin 2) * 10000 + 1 * r.val = n.val; rw [e0, hn]; omega
  | ⟨1, _⟩ => show win1_1.index t (1 : Fin 2) * 64 + 1 * k.val = k.val; rw [e1]; omega

/-- The neighbour weights are read whole at every point. -/
theorem blk2_apply (c : Dev nD) (t : Fin cfg1.N) (k : Fin 64) (q : Fin 64) :
    (iblk1 V c 2 t : Vec Ideal S64x64 .f32) (ix2 k q) = (V c main_v46 : S64x64.Idx → EReal) (ix2 k q) := by
  obtain ⟨-, -, -, -, e0, e1, -⟩ := idx_facts t
  unfold iblk1
  rw [View.read_apply]
  show (V c main_v46 : S64x64.Idx → EReal) _ = _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The root weights are read whole at every point. -/
theorem blk3_apply (c : Dev nD) (t : Fin cfg1.N) (k : Fin 64) (q : Fin 64) :
    (iblk1 V c 3 t : Vec Ideal S64x64 .f32) (ix2 k q) = (V c main_v47 : S64x64.Idx → EReal) (ix2 k q) := by
  obtain ⟨-, -, -, -, -, -, e0, e1, -⟩ := idx_facts t
  unfold iblk1
  rw [View.read_apply]
  show (V c main_v47 : S64x64.Idx → EReal) _ = _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias row is read whole at every point. -/
theorem blk4_apply (c : Dev nD) (t : Fin cfg1.N) (q : Fin 64) :
    (iblk1 V c 4 t : Vec Ideal S1x64 .f32) (ix2 (0 : Fin 1) q) = (V c main_v48 : S1x64.Idx → EReal) (ix2 (0 : Fin 1) q) := by
  obtain ⟨-, -, -, -, -, -, -, -, e0, e1, -⟩ := idx_facts t
  unfold iblk1
  rw [View.read_apply]
  show (V c main_v48 : S1x64.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

set_option maxHeartbeats 4000000 in
/-- What point t writes back is block t of the layer on the whole arrays the region finds. -/
theorem flushed_eq (h2 : S1x64.BroadcastsInDim S100000x64 (![0, 1] : Fin 2 → Fin 2)) (h0 : S_.BroadcastsInDim S100000x64 (![] : Fin 0 → Fin 2))
    (c : Dev nD) (t : Fin cfg1.N) :
    (dat1 V c).flushed 5 t = ((cfg1.win 5).blk t).view.read (Elt Ideal)
      (reluArr h0 (layerArr h2 (V c (Pipeline.arrRef spec1 0)) (V c (Pipeline.arrRef spec1 1)) (V c (Pipeline.arrRef spec1 2)) (V c (Pipeline.arrRef spec1 3)) (V c (Pipeline.arrRef spec1 4)))) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨r, q, rfl⟩ : ∃ (r : Fin 10000) (q : Fin 64), j = ix2 r q := ⟨j 0, j 1, eq_ix2 j⟩
  obtain ⟨-, -, -, -, -, -, -, -, -, -, e50, e51, ht⟩ := idx_facts t
  rw [View.read_apply]
  have hlt : 10000 * t.val + r.val < 100000 := by have := r.isLt; omega
  have hemb : ((cfg1.win 5).blk t).view.emb (ix2 r q) = ix2 (⟨10000 * t.val + r.val, hlt⟩ : Fin 100000) q := by
    funext a
    apply Fin.ext
    match a with
    | ⟨0, _⟩ => show win1_5.index t (0 : Fin 2) * 10000 + 1 * r.val = 10000 * t.val + r.val; rw [e50]; omega
    | ⟨1, _⟩ => show win1_5.index t (1 : Fin 2) * 64 + 1 * q.val = q.val; rw [e51]; omega
  rw [hemb]
  exact pay_entry h2 h0 (iblk1 V c 0 t) (iblk1 V c 1 t) (iblk1 V c 2 t) (iblk1 V c 3 t) (iblk1 V c 4 t)
    (V c main_v45) (V c main_v33) (V c main_v46) (V c main_v47) (V c main_v48) r ⟨10000 * t.val + r.val, hlt⟩ q
    (fun k => blk0_apply V c t r k _ rfl) (fun k => blk1_apply V c t r k _ rfl)
    (fun k => blk2_apply V c t k q) (fun k => blk3_apply V c t k q) (blk4_apply V c t q)

/-- Every entry of the output array is in the block of the point that owns its row. -/
theorem cover (c : Dev nD) (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := rfl
  let t : Fin cfg1.N := ⟨(i 0).val / 10000, by rw [hN]; omega⟩
  refine ⟨t, flush1_5 t, ?_⟩
  obtain ⟨-, -, -, -, -, -, -, -, -, -, e50, e51, -⟩ := idx_facts t
  show i ∈ ((View.whole main_v49).slice (win1_5.rect t)).set
  rw [View.set_slice_whole, Rect.mem_set_unit]
  intro a
  have htv : t.val = (i 0).val / 10000 := rfl
  match a with
  | ⟨0, _⟩ =>
    show win1_5.index t (0 : Fin 2) * 10000 ≤ (i 0).val ∧ (i 0).val < win1_5.index t (0 : Fin 2) * 10000 + 10000
    rw [e50, htv]; omega
  | ⟨1, _⟩ =>
    show win1_5.index t (1 : Fin 2) * 64 ≤ (i 1).val ∧ (i 1).val < win1_5.index t (1 : Fin 2) * 64 + 64
    rw [e51]; omega

/-- After the region the output array is the layer of the whole arrays the region finds. -/
theorem arr (h2 : S1x64.BroadcastsInDim S100000x64 (![0, 1] : Fin 2 → Fin 2)) (h0 : S_.BroadcastsInDim S100000x64 (![] : Fin 0 → Fin 2)) (c : Dev nD) :
    (dat1 V c).arrAt 5 cfg1.N = (reluArr h0 (layerArr h2 (V c (Pipeline.arrRef spec1 0)) (V c (Pipeline.arrRef spec1 1)) (V c (Pipeline.arrRef spec1 2)) (V c (Pipeline.arrRef spec1 3)) (V c (Pipeline.arrRef spec1 4)))) :=
  (dat1 V c).arrAt_eq_of_cover 5 _ (fun t _ => flushed_eq V h2 h0 c t) (cover c)

end Cert.KernelIdeal.Hand1

end
-- ==== Proof.ChainC.lean ====
/-
  The second layer and the stretch after it.

  Region 1 finds the reference's stages again (the mean of the first layer's rows over the neighbours, the first layer, the
  next transposed weights and bias row) and leaves the clamped layer of them, the reference's second layer; the host
  operations that follow form the mean over the neighbours once more and transpose the third layer's weights.
-/
import proofs.«115719_j12601434046587_2_alg».proof.Proof.Gen.KernelIdeal.Frame
import proofs.«115719_j12601434046587_2_alg».proof.Proof.Gen.ReferenceIdeal.Read
import proofs.«115719_j12601434046587_2_alg».proof.Proof.ChainA
import proofs.«115719_j12601434046587_2_alg».proof.Proof.Carry
import proofs.«115719_j12601434046587_2_alg».proof.Proof.ChainB
import proofs.«115719_j12601434046587_2_alg».proof.Proof.Region1Value

set_option maxRecDepth 16384

noncomputable section

namespace Cert.KernelIdeal.ChainC

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

open Idealize.ShloMosaic.SageRows

set_option maxHeartbeats 4000000 in
/-- Region 1 leaves the layer of what it finds; what it finds are the reference's stages; so it leaves the reference's
    next stage. -/
theorem W4_v49 : W4 m ρ c (Proc.devRef .tc main_v49) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  refine (Cert.KernelIdeal.Hand1.arr (V3 m ρ) Cert.ReferenceIdeal.Facts₀.bcast_S1x64_S100000x64_0_1 Cert.KernelIdeal.Facts₀.bcast_S_S100000x64 c).trans ?_
  show reluArr _ (layerArr _ (W3 m ρ c (Proc.devRef .tc main_v45)) (W3 m ρ c (Proc.devRef .tc main_v33)) (W3 m ρ c (Proc.devRef .tc main_v46)) (W3 m ρ c (Proc.devRef .tc main_v47)) (W3 m ρ c (Proc.devRef .tc main_v48))) = _
  rw [ChainB.W3_v45 m ρ c, ChainB.W3_v33 m ρ c, ChainB.W3_v46 m ρ c, ChainB.W3_v47 m ρ c, ChainB.W3_v48 m ρ c]
  rfl
set_option maxHeartbeats 4000000 in
theorem W5_v61 : W5 m ρ c (Proc.devRef .tc main_v61) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v61) = _
  after_results_simp
  rw [W4_v49 m ρ c, Carry.W4_v1 m ρ c, Carry.W4_v3 m ρ c, Carry.W4_v9 m ρ c]
  rfl
set_option maxHeartbeats 4000000 in
theorem W5_v49 : W5 m ρ c (Proc.devRef .tc main_v49) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v49) = _
  after_results_simp
  exact W4_v49 m ρ c
set_option maxHeartbeats 4000000 in
theorem W5_v62 : W5 m ρ c (Proc.devRef .tc main_v62) = Cert.ReferenceIdeal.Read.val_main_v84 (F := Ideal) (m ((c : Thread nD τ).loc main_arg10)) := by
  show StableHlo.after hostOps2 (W4 m ρ c) (Proc.devRef .tc main_v62) = _
  after_results_simp
  rw [Carry.W4_arg10 m ρ c]
  rfl
set_option maxHeartbeats 4000000 in
theorem W5_v63 : W5 m ρ c (Proc.devRef .tc main_v63) = Cert.ReferenceIdeal.Read.val_main_v89 (F := Ideal) (m ((c : Thread nD τ).loc main_arg12)) := by
  show StableHlo.after hostOps2 (W4 m ρ c) (Proc.devRef .tc main_v63) = _
  after_results_simp
  rw [Carry.W4_arg12 m ρ c]
  rfl
set_option maxHeartbeats 4000000 in
theorem W5_v64 : W5 m ρ c (Proc.devRef .tc main_v64) = Cert.ReferenceIdeal.Read.val_main_v86 (F := Ideal) (m ((c : Thread nD τ).loc main_arg11)) := by
  show StableHlo.after hostOps2 (W4 m ρ c) (Proc.devRef .tc main_v64) = _
  after_results_simp
  rw [Carry.W4_arg11 m ρ c]
  exact ChainA.reshape_row_eq_bcast _ _ _

end Cert.KernelIdeal.ChainC

end
-- ==== Proof.Region2Value.lean ====
/-
  Kernel region 2: the array its output window leaves, as one function of the arrays the region finds.

  The region runs over ten grid points; point t reads rows 10000·t … 10000·t + 9999 of the aggregated-neighbour array
  and of the node array, the two weight matrices and the bias row whole, and writes rows 10000·t … 10000·t + 9999 of
  the output.  Entry (r, q) of the block it writes is entry (10000·t + r, q) of the layer on the whole arrays, because
  a row of the layer depends on the same row of the two left operands only.  The ten blocks tile the output array, so
  after the region the array is the layer of the whole arrays.
-/
import proofs.«115719_j12601434046587_2_alg».proof.Proof.Gen.KernelIdeal.Frame
import proofs.«115719_j12601434046587_2_alg».proof.Proof.LibSageRows

set_option maxRecDepth 16384

noncomputable section

namespace Cert.KernelIdeal.Hand2

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.SageRows

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of what the body computes from its blocks is entry (n, q) of the layer on whole arrays, when row r of
    the two left blocks is row n of the two left arrays and the weights and the bias are read whole. -/
theorem pay_entry (h2 : S1x64.BroadcastsInDim S100000x64 (![0, 1] : Fin 2 → Fin 2))
    (x0 x1 : Vec Ideal S10000x64 .f32) (x2 x3 : Vec Ideal S64x64 .f32) (x4 : Vec Ideal S1x64 .f32)
    (A X : FVec Ideal S100000x64 .f32) (Wl Wr : FVec Ideal S64x64 .f32) (b2 : FVec Ideal S1x64 .f32)
    (r : Fin 10000) (n : Fin 100000) (q : Fin 64)
    (hA : ∀ k : Fin 64, x0 (ix2 r k) = A (ix2 n k)) (hX : ∀ k : Fin 64, x1 (ix2 r k) = X (ix2 n k))
    (hWl : ∀ k : Fin 64, x2 (ix2 k q) = Wl (ix2 k q)) (hWr : ∀ k : Fin 64, x3 (ix2 k q) = Wr (ix2 k q))
    (hbq : x4 (ix2 (0 : Fin 1) q) = b2 (ix2 (0 : Fin 1) q)) :
    k2_pay1 x0 x1 x2 x3 x4 (ix2 r q) = (layerArr h2 A X Wl Wr b2) (ix2 n q) := by
  unfold k2_pay1
  simp only [shapeCast_self]
  exact block_entry bitsLt_bf16_f32 broadcasts_S1x64_S10000x64 h2 x0 x1 x2 x3 x4 A X Wl Wr b2 r n q hA hX hWl hWr hbq

/-- The printed index maps, decided over the grid: the row windows and the output move with the point, the weights
    and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ t.val < 10 :=
  (by decide +kernel : ∀ t : Fin grid2.N, _)

/-- Row r of the aggregated block at point t is row 10000·t + r of the array. -/
theorem blk0_apply (c : Dev nD) (t : Fin cfg2.N) (r : Fin 10000) (k : Fin 64) (n : Fin 100000)
    (hn : n.val = 10000 * t.val + r.val) :
    (iblk2 V c 0 t : Vec Ideal S10000x64 .f32) (ix2 r k) = (V c main_v61 : S100000x64.Idx → EReal) (ix2 n k) := by
  obtain ⟨e0, e1, -⟩ := idx_facts t
  unfold iblk2
  rw [View.read_apply]
  show (V c main_v61 : S100000x64.Idx → EReal) _ = _
  congr 1
  funext a
  apply Fin.ext
  match a with
  | ⟨0, _⟩ => show win2_0.index t (0 : Fin 2) * 10000 + 1 * r.val = n.val; rw [e0, hn]; omega
  | ⟨1, _⟩ => show win2_0.index t (1 : Fin 2) * 64 + 1 * k.val = k.val; rw [e1]; omega

/-- Row r of the node block at point t is row 10000·t + r of the array. -/
theorem blk1_apply (c : Dev nD) (t : Fin cfg2.N) (r : Fin 10000) (k : Fin 64) (n : Fin 100000)
    (hn : n.val = 10000 * t.val + r.val) :
    (iblk2 V c 1 t : Vec Ideal S10000x64 .f32) (ix2 r k) = (V c main_v49 : S100000x64.Idx → EReal) (ix2 n k) := by
  obtain ⟨-, -, e0, e1, -⟩ := idx_facts t
  unfold iblk2
  rw [View.read_apply]
  show (V c main_v49 : S100000x64.Idx → EReal) _ = _
  congr 1
  funext a
  apply Fin.ext
  match a with
  | ⟨0, _⟩ => show win2_1.index t (0 : Fin 2) * 10000 + 1 * r.val = n.val; rw [e0, hn]; omega
  | ⟨1, _⟩ => show win2_1.index t (1 : Fin 2) * 64 + 1 * k.val = k.val; rw [e1]; omega

/-- The neighbour weights are read whole at every point. -/
theorem blk2_apply (c : Dev nD) (t : Fin cfg2.N) (k : Fin 64) (q : Fin 64) :
    (iblk2 V c 2 t : Vec Ideal S64x64 .f32) (ix2 k q) = (V c main_v62 : S64x64.Idx → EReal) (ix2 k q) := by
  obtain ⟨-, -, -, -, e0, e1, -⟩ := idx_facts t
  unfold iblk2
  rw [View.read_apply]
  show (V c main_v62 : S64x64.Idx → EReal) _ = _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The root weights are read whole at every point. -/
theorem blk3_apply (c : Dev nD) (t : Fin cfg2.N) (k : Fin 64) (q : Fin 64) :
    (iblk2 V c 3 t : Vec Ideal S64x64 .f32) (ix2 k q) = (V c main_v63 : S64x64.Idx → EReal) (ix2 k q) := by
  obtain ⟨-, -, -, -, -, -, e0, e1, -⟩ := idx_facts t
  unfold iblk2
  rw [View.read_apply]
  show (V c main_v63 : S64x64.Idx → EReal) _ = _
  congr 1
  funext a
  apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The bias row is read whole at every point. -/
theorem blk4_apply (c : Dev nD) (t : Fin cfg2.N) (q : Fin 64) :
    (iblk2 V c 4 t : Vec Ideal S1x64 .f32) (ix2 (0 : Fin 1) q) = (V c main_v64 : S1x64.Idx → EReal) (ix2 (0 : Fin 1) q) := by
  obtain ⟨-, -, -, -, -, -, -, -, e0, e1, -⟩ := idx_facts t
  unfold iblk2
  rw [View.read_apply]
  show (V c main_v64 : S1x64.Idx → EReal) _ = _
  congr 1
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

set_option maxHeartbeats 4000000 in
/-- What point t writes back is block t of the layer on the whole arrays the region finds. -/
theorem flushed_eq (h2 : S1x64.BroadcastsInDim S100000x64 (![0, 1] : Fin 2 → Fin 2))
    (c : Dev nD) (t : Fin cfg2.N) :
    (dat2 V c).flushed 5 t = ((cfg2.win 5).blk t).view.read (Elt Ideal)
      (layerArr h2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  funext j
  obtain ⟨r, q, rfl⟩ : ∃ (r : Fin 10000) (q : Fin 64), j = ix2 r q := ⟨j 0, j 1, eq_ix2 j⟩
  obtain ⟨-, -, -, -, -, -, -, -, -, -, e50, e51, ht⟩ := idx_facts t
  rw [View.read_apply]
  have hlt : 10000 * t.val + r.val < 100000 := by have := r.isLt; omega
  have hemb : ((cfg2.win 5).blk t).view.emb (ix2 r q) = ix2 (⟨10000 * t.val + r.val, hlt⟩ : Fin 100000) q := by
    funext a
    apply Fin.ext
    match a with
    | ⟨0, _⟩ => show win2_5.index t (0 : Fin 2) * 10000 + 1 * r.val = 10000 * t.val + r.val; rw [e50]; omega
    | ⟨1, _⟩ => show win2_5.index t (1 : Fin 2) * 64 + 1 * q.val = q.val; rw [e51]; omega
  rw [hemb]
  exact pay_entry h2 (iblk2 V c 0 t) (iblk2 V c 1 t) (iblk2 V c 2 t) (iblk2 V c 3 t) (iblk2 V c 4 t)
    (V c main_v61) (V c main_v49) (V c main_v62) (V c main_v63) (V c main_v64) r ⟨10000 * t.val + r.val, hlt⟩ q
    (fun k => blk0_apply V c t r k _ rfl) (fun k => blk1_apply V c t r k _ rfl)
    (fun k => blk2_apply V c t k q) (fun k => blk3_apply V c t k q) (blk4_apply V c t q)

/-- Every entry of the output array is in the block of the point that owns its row. -/
theorem cover (c : Dev nD) (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := rfl
  let t : Fin cfg2.N := ⟨(i 0).val / 10000, by rw [hN]; omega⟩
  refine ⟨t, flush2_5 t, ?_⟩
  obtain ⟨-, -, -, -, -, -, -, -, -, -, e50, e51, -⟩ := idx_facts t
  show i ∈ ((View.whole main_v65).slice (win2_5.rect t)).set
  rw [View.set_slice_whole, Rect.mem_set_unit]
  intro a
  have htv : t.val = (i 0).val / 10000 := rfl
  match a with
  | ⟨0, _⟩ =>
    show win2_5.index t (0 : Fin 2) * 10000 ≤ (i 0).val ∧ (i 0).val < win2_5.index t (0 : Fin 2) * 10000 + 10000
    rw [e50, htv]; omega
  | ⟨1, _⟩ =>
    show win2_5.index t (1 : Fin 2) * 64 ≤ (i 1).val ∧ (i 1).val < win2_5.index t (1 : Fin 2) * 64 + 64
    rw [e51]; omega

/-- After the region the output array is the layer of the whole arrays the region finds. -/
theorem arr (h2 : S1x64.BroadcastsInDim S100000x64 (![0, 1] : Fin 2 → Fin 2)) (c : Dev nD) :
    (dat2 V c).arrAt 5 cfg2.N = (layerArr h2 (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 5 _ (fun t _ => flushed_eq V h2 c t) (cover c)

end Cert.KernelIdeal.Hand2

end
-- ==== Proof.ChainD.lean ====
/-
  The third layer and the stretch after it.

  Region 2 leaves the third layer (no clamp) of the reference's stages, which is the reference's third layer.  The host
  operations that follow add the nodes' rows up per graph, count the nodes of every graph, and transpose or reshape the
  four dense layers' weights and biases: the reference's stages, the biases up to the spelling of a vector made a row.
-/
import proofs.«115719_j12601434046587_2_alg».proof.Proof.Gen.KernelIdeal.Frame
import proofs.«115719_j12601434046587_2_alg».proof.Proof.Gen.ReferenceIdeal.Read
import proofs.«115719_j12601434046587_2_alg».proof.Proof.ChainA
import proofs.«115719_j12601434046587_2_alg».proof.Proof.Carry
import proofs.«115719_j12601434046587_2_alg».proof.Proof.ChainC
import proofs.«115719_j12601434046587_2_alg».proof.Proof.Region2Value

set_option maxRecDepth 16384

noncomputable section

namespace Cert.KernelIdeal.ChainD

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

open Idealize.ShloMosaic.SageRows

set_option maxHeartbeats 4000000 in
/-- Region 2 leaves the layer of what it finds; what it finds are the reference's stages; so it leaves the reference's
    next stage. -/
theorem W6_v65 : W6 m ρ c (Proc.devRef .tc main_v65) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ?_
  refine (Cert.KernelIdeal.Hand2.arr (V5 m ρ) Cert.ReferenceIdeal.Facts₀.bcast_S1x64_S100000x64_0_1 c).trans ?_
  show layerArr _ (W5 m ρ c (Proc.devRef .tc main_v61)) (W5 m ρ c (Proc.devRef .tc main_v49)) (W5 m ρ c (Proc.devRef .tc main_v62)) (W5 m ρ c (Proc.devRef .tc main_v63)) (W5 m ρ c (Proc.devRef .tc main_v64)) = _
  rw [ChainC.W5_v61 m ρ c, ChainC.W5_v49 m ρ c, ChainC.W5_v62 m ρ c, ChainC.W5_v63 m ρ c, ChainC.W5_v64 m ρ c]
  rfl
set_option maxHeartbeats 4000000 in
theorem W7_v68 : W7 m ρ c (Proc.devRef .tc main_v68) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v68) = _
  after_results_simp
  rw [W6_v65 m ρ c, Carry.W6_arg3 m ρ c]
  rfl
set_option maxHeartbeats 4000000 in
theorem W7_v72 : W7 m ρ c (Proc.devRef .tc main_v72) = Cert.ReferenceIdeal.Read.val_main_v98 (F := Ideal) (m ((c : Thread nD τ).loc main_arg3)) := by
  show StableHlo.after hostOps3 (W6 m ρ c) (Proc.devRef .tc main_v72) = _
  after_results_simp
  rw [Carry.W6_arg3 m ρ c]
  rfl
set_option maxHeartbeats 4000000 in
theorem W7_v73 : W7 m ρ c (Proc.devRef .tc main_v73) = Cert.ReferenceIdeal.Read.val_main_v103 (F := Ideal) (m ((c : Thread nD τ).loc main_arg13)) := by
  show StableHlo.after hostOps3 (W6 m ρ c) (Proc.devRef .tc main_v73) = _
  after_results_simp
  rw [Carry.W6_arg13 m ρ c]
  rfl
set_option maxHeartbeats 4000000 in
theorem W7_v74 : W7 m ρ c (Proc.devRef .tc main_v74) = Cert.ReferenceIdeal.Read.val_main_v105 (F := Ideal) (m ((c : Thread nD τ).loc main_arg14)) := by
  show StableHlo.after hostOps3 (W6 m ρ c) (Proc.devRef .tc main_v74) = _
  after_results_simp
  rw [Carry.W6_arg14 m ρ c]
  exact ChainA.reshape_row_eq_bcast _ _ _
set_option maxHeartbeats 4000000 in
theorem W7_v75 : W7 m ρ c (Proc.devRef .tc main_v75) = Cert.ReferenceIdeal.Read.val_main_v109 (F := Ideal) (m ((c : Thread nD τ).loc main_arg15)) := by
  show StableHlo.after hostOps3 (W6 m ρ c) (Proc.devRef .tc main_v75) = _
  after_results_simp
  rw [Carry.W6_arg15 m ρ c]
  rfl
set_option maxHeartbeats 4000000 in
theorem W7_v76 : W7 m ρ c (Proc.devRef .tc main_v76) = Cert.ReferenceIdeal.Read.val_main_v111 (F := Ideal) (m ((c : Thread nD τ).loc main_arg16)) := by
  show StableHlo.after hostOps3 (W6 m ρ c) (Proc.devRef .tc main_v76) = _
  after_results_simp
  rw [Carry.W6_arg16 m ρ c]
  exact ChainA.reshape_row_eq_bcast _ _ _
set_option maxHeartbeats 4000000 in
theorem W7_v77 : W7 m ρ c (Proc.devRef .tc main_v77) = Cert.ReferenceIdeal.Read.val_main_v115 (F := Ideal) (m ((c : Thread nD τ).loc main_arg17)) := by
  show StableHlo.after hostOps3 (W6 m ρ c) (Proc.devRef .tc main_v77) = _
  after_results_simp
  rw [Carry.W6_arg17 m ρ c]
  rfl
set_option maxHeartbeats 4000000 in
theorem W7_v78 : W7 m ρ c (Proc.devRef .tc main_v78) = Cert.ReferenceIdeal.Read.val_main_v117 (F := Ideal) (m ((c : Thread nD τ).loc main_arg18)) := by
  show StableHlo.after hostOps3 (W6 m ρ c) (Proc.devRef .tc main_v78) = _
  after_results_simp
  rw [Carry.W6_arg18 m ρ c]
  exact ChainA.reshape_row_eq_bcast _ _ _
set_option maxHeartbeats 4000000 in
theorem W7_v79 : W7 m ρ c (Proc.devRef .tc main_v79) = Cert.ReferenceIdeal.Read.val_main_v121 (F := Ideal) (m ((c : Thread nD τ).loc main_arg19)) := by
  show StableHlo.after hostOps3 (W6 m ρ c) (Proc.devRef .tc main_v79) = _
  after_results_simp
  rw [Carry.W6_arg19 m ρ c]
  rfl
set_option maxHeartbeats 4000000 in
theorem W7_v80 : W7 m ρ c (Proc.devRef .tc main_v80) = Cert.ReferenceIdeal.Read.val_main_v123 (F := Ideal) (m ((c : Thread nD τ).loc main_arg20)) := by
  show StableHlo.after hostOps3 (W6 m ρ c) (Proc.devRef .tc main_v80) = _
  after_results_simp
  rw [Carry.W6_arg20 m ρ c]
  exact ChainA.reshape_row_eq_bcast _ _ _

end Cert.KernelIdeal.ChainD

end
-- ==== Proof.LibLinearRows.lean ====
/-
  A linear layer on rows, with its bias, an optional residual and the leaky selection, read at one entry.

  Each dense stage of a message-passing network multiplies a matrix of rows by a weight matrix, adds a bias to every
  row, perhaps adds a second matrix of the same shape, and perhaps passes every entry through the selection
  "the entry if it is positive, a fixed multiple of it otherwise".  Entry (p, c) of the outcome depends on row p of
  the left operand, column c of the weights, entry c of the bias and entry (p, c) of the residual only, so one formula
  describes a block of rows and the whole array alike.  The formula is stated once over arbitrary extents and shown to be
  what two spellings compute at the ideal instance: a product accumulated into a zero array of operands passed through
  a change of float format, the bias a one-row matrix repeated down the rows, the two constants of the selection
  splatted; and a general product, the bias a vector made a row and then repeated down the rows, the two constants
  scalars broadcast to the shape.
-/
import proofs.«115719_j12601434046587_2_alg».proof.Proof.LibMatRows
import proofs.«115719_j12601434046587_2_alg».proof.Proof.LibHostLayout
import Idealize.ShloMosaic.Lib.ValueLayout
import Idealize.ShloMosaic.Lib.Pipeline.Value

noncomputable section

open scoped BigOperators

namespace Idealize.ShloMosaic.LinearRows

open Idealize.ShloMosaic Idealize.ShloMosaic.ValueIdx Idealize.ShloMosaic.MatRows

variable {M K N : Nat}

/-- The selection at one number: v where v is above the number the word z denotes, the number the word s denotes times v
    elsewhere, in the instance's own comparison, product and choice. -/
def leakyAt (z s : BitVec 32) (v : EReal) : EReal :=
  Scalar.select (FloatOps.cmpf (F := Ideal) (φ := .f32) .ogt v (FloatOps.ofBits (F := Ideal) .f32 z)) v
    (FloatOps.mulf (F := Ideal) (φ := .f32) (FloatOps.ofBits (F := Ideal) .f32 s) v)

/-- Entry (p, c) of the product of X by W with entry c of the bias added. -/
def linAt (X : (⟨2, ![M, K]⟩ : Shape).Idx → EReal) (W : (⟨2, ![K, N]⟩ : Shape).Idx → EReal) (b : Fin N → EReal)
    (p : Fin M) (c : Fin N) : EReal :=
  (∑ k : Fin K, X (ix2 p k) * W (ix2 k c)) + b c

/-! ## The kernel's spelling -/

/-- The selection over splatted constants, at an index. -/
theorem kernel_leaky_apply {S : Shape} (z s : BitVec 32) (v : FVec Ideal S .f32) (i : S.Idx) :
    select (cmpf .ogt v (broadcast S (Scalar.ofBits (F := Ideal) .f32 z))) v
        (mulf (broadcast S (Scalar.ofBits (F := Ideal) .f32 s)) v) i
      = leakyAt z s (v i) := rfl

/-- A product into the zero array of operands passed through a change of format, a one-row bias repeated down the rows
    added. -/
theorem kernel_lin_apply (ht1 ht2 : FTy.bf16.bits < FTy.f32.bits)
    (hb : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32)
    (p : Fin M) (c : Fin N) :
    addf (matmul (DotDims.plain M K N) none (truncf .bf16 x0 ht1) (truncf .bf16 x1 ht2)
          (constant (F := Ideal) ⟨2, ![M, N]⟩ .f32 0x00000000#32))
        (broadcastTo ⟨2, ![M, N]⟩ x2 hb) (ix2 p c)
      = linAt x0 x1 (fun q => x2 (ix2 (0 : Fin 1) q)) p c := by
  show matmul (DotDims.plain M K N) none _ _ _ (ix2 p c) + broadcastTo ⟨2, ![M, N]⟩ x2 hb (ix2 p c) = _
  rw [broadcastTo_1b_ab_apply]
  exact congrArg (· + x2 (ix2 (0 : Fin 1) c)) (matmul_plain_apply none _ _ p c)

/-! ## The host's spelling -/

/-- The selection over broadcast scalars, at an index. -/
theorem host_leaky_apply {S : Shape} (h : (⟨0, ![]⟩ : Shape).BroadcastsInDim S (![] : Fin 0 → Fin S.rank))
    (z s : BitVec 32) (v : FVec Ideal S .f32) (i : S.Idx) :
    select (cmpf .ogt v (broadcastInDim S ![] h (constant (F := Ideal) ⟨0, ![]⟩ .f32 z))) v
        (mulf (broadcastInDim S ![] h (constant (F := Ideal) ⟨0, ![]⟩ .f32 s)) v) i
      = leakyAt z s (v i) := by
  show Scalar.select (FloatOps.cmpf (F := Ideal) (φ := .f32) .ogt (v i) (broadcastInDim S ![] h (constant (F := Ideal) ⟨0, ![]⟩ .f32 z) i)) (v i)
      (FloatOps.mulf (F := Ideal) (φ := .f32) (broadcastInDim S ![] h (constant (F := Ideal) ⟨0, ![]⟩ .f32 s) i) (v i)) = _
  rw [Cert.HostLayout.bcast_scalar_apply, Cert.HostLayout.bcast_scalar_apply]
  rfl

/-- A general product, a bias vector made a row and repeated down the rows added. -/
theorem host_lin_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32)
    (p : Fin M) (c : Fin N) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = linAt X W (fun q => b (ix1 q)) p c := by
  show (Host.dotGeneral (F := Ideal) (DotDims.plain M K N) none X W : FVec Ideal ⟨2, ![M, N]⟩ .f32) (ix2 p c)
      + broadcastInDim ⟨2, ![M, N]⟩ ![0, 1] h2 (broadcastInDim ⟨2, ![1, N]⟩ ![1] h1 b) (ix2 p c) = _
  rw [Cert.HostLayout.bcast_cols_apply, Cert.HostLayout.bcast_rowvec_apply]
  exact congrArg (· + b (ix1 c)) (dotGeneral_plain_apply none X W p c)

/-- The formula depends on the operands through the entries it names only. -/
theorem linAt_congr {M' : Nat} {X : (⟨2, ![M, K]⟩ : Shape).Idx → EReal} {X' : (⟨2, ![M', K]⟩ : Shape).Idx → EReal}
    {W W' : (⟨2, ![K, N]⟩ : Shape).Idx → EReal} {b b' : Fin N → EReal} {p : Fin M} {p' : Fin M'} {c : Fin N}
    (hX : ∀ k : Fin K, X (ix2 p k) = X' (ix2 p' k)) (hW : ∀ k : Fin K, W (ix2 k c) = W' (ix2 k c)) (hb : b c = b' c) :
    linAt X W b p c = linAt X' W' b' p' c := by
  unfold linAt
  rw [hb]
  exact congrArg (· + b' c) (Finset.sum_congr rfl fun k _ => by rw [hX k, hW k])

end Idealize.ShloMosaic.LinearRows

end
-- ==== Proof.MlpRows.lean ====
/-
  The layers of a small perceptron on rows, in two spellings, as equal whole arrays.

  A pooled mean divides every row of a matrix by that row's entry of a column clamped below by a constant.  A dense
  layer multiplies a matrix of rows by a weight matrix and adds a one-row bias to every row; a rectified layer then
  takes the larger of each entry and a constant.  One spelling accumulates the product into a zero array from operands
  passed through a change of float format, repeats the column or the row by a trailing-axes broadcast and splats the
  constants; the other takes a general product, repeats by a broadcast along named axes and broadcasts scalar
  constants.  At the ideal instance the two spellings denote the same array, whatever the extents.  Each statement
  takes the inner operand of the first spelling as any array equal to the inner operand of the second, so that layers
  compose by nesting the statements.
-/
import proofs.«115719_j12601434046587_2_alg».proof.Proof.LibLinearRows

noncomputable section

open scoped BigOperators

namespace Idealize.ShloMosaic.MlpRows

open Idealize.ShloMosaic Idealize.ShloMosaic.ValueIdx Idealize.ShloMosaic.MatRows Idealize.ShloMosaic.LinearRows

variable {M K N : Nat}

/-- A column [a, 1] repeated along b columns reads, at (p, c), the column's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rows divided by a column clamped below by the number the word w denotes: the two spellings agree. -/
theorem pool_eq (w : BitVec 32) (hb : (⟨2, ![M, 1]⟩ : Shape).Broadcasts ⟨2, ![M, N]⟩)
    (hA : (⟨2, ![M, 1]⟩ : Shape).BroadcastsInDim ⟨2, ![M, N]⟩ (![0, 1] : Fin 2 → Fin 2))
    (hB : (⟨0, ![]⟩ : Shape).BroadcastsInDim ⟨2, ![M, 1]⟩ (![] : Fin 0 → Fin 2))
    (X : FVec Ideal ⟨2, ![M, N]⟩ .f32) (cnt : FVec Ideal ⟨2, ![M, 1]⟩ .f32) :
    divf X (broadcastTo ⟨2, ![M, N]⟩ (maximumf cnt (broadcast ⟨2, ![M, 1]⟩ (Scalar.ofBits (F := Ideal) .f32 w))) hb)
      = Host.divf X (broadcastInDim ⟨2, ![M, N]⟩ ![0, 1] hA
          (maximumf cnt (broadcastInDim ⟨2, ![M, 1]⟩ ![] hB (constant (F := Ideal) ⟨0, ![]⟩ .f32 w)))) := by
  funext j
  obtain ⟨p, q, rfl⟩ : ∃ (p : Fin M) (q : Fin N), j = ix2 p q := ⟨j 0, j 1, eq_ix2 j⟩
  show Ideal.div (X (ix2 p q)) (broadcastTo ⟨2, ![M, N]⟩ _ hb (ix2 p q))
    = Ideal.div (X (ix2 p q)) (broadcastInDim (s := ⟨2, ![M, 1]⟩) ⟨2, ![M, N]⟩ ![0, 1] hA _ (ix2 p q))
  rw [broadcastTo_a1_ab_apply, Cert.HostLayout.bcast_rows_apply]
  show Ideal.div _ (max (cnt _) _) = Ideal.div _ (max (cnt _) (broadcastInDim (s := ⟨0, ![]⟩) ⟨2, ![M, 1]⟩ ![] hB _ _))
  rw [Cert.HostLayout.bcast_scalar_apply]
  rfl

/-- A dense layer: the product of rows by weights with a one-row bias added to every row, in the two spellings, over
    inner operands that are equal arrays. -/
theorem lin_eq (ht1 ht2 : FTy.bf16.bits < FTy.f32.bits) (hb : (⟨2, ![1, N]⟩ : Shape).Broadcasts ⟨2, ![M, N]⟩)
    (hC : (⟨2, ![1, N]⟩ : Shape).BroadcastsInDim ⟨2, ![M, N]⟩ (![0, 1] : Fin 2 → Fin 2))
    {X X' : FVec Ideal ⟨2, ![M, K]⟩ .f32} (hX : X = X') (W : FVec Ideal ⟨2, ![K, N]⟩ .f32) (b : FVec Ideal ⟨2, ![1, N]⟩ .f32) :
    addf (matmul (DotDims.plain M K N) none (truncf .bf16 X ht1) (truncf .bf16 W ht2)
          (constant (F := Ideal) ⟨2, ![M, N]⟩ .f32 0x00000000#32))
        (broadcastTo ⟨2, ![M, N]⟩ b hb)
      = addf (Host.dotGeneral (F := Ideal) (DotDims.plain M K N) none X' W : FVec Ideal ⟨2, ![M, N]⟩ .f32)
          (broadcastInDim ⟨2, ![M, N]⟩ ![0, 1] hC b) := by
  subst hX
  funext j
  obtain ⟨p, q, rfl⟩ : ∃ (p : Fin M) (q : Fin N), j = ix2 p q := ⟨j 0, j 1, eq_ix2 j⟩
  refine (kernel_lin_apply ht1 ht2 hb X W b p q).trans ?_
  show _ = (Host.dotGeneral (F := Ideal) (DotDims.plain M K N) none X W : FVec Ideal ⟨2, ![M, N]⟩ .f32) (ix2 p q)
      + broadcastInDim ⟨2, ![M, N]⟩ ![0, 1] hC b (ix2 p q)
  rw [Cert.HostLayout.bcast_cols_apply, dotGeneral_plain_apply]
  rfl

/-- A rectified dense layer: the larger of each entry of a dense layer and the number the word w denotes, in the two
    spellings, over inner operands that are equal arrays. -/
theorem relu_lin_eq (w : BitVec 32) (ht1 ht2 : FTy.bf16.bits < FTy.f32.bits)
    (hb : (⟨2, ![1, N]⟩ : Shape).Broadcasts ⟨2, ![M, N]⟩)
    (hC : (⟨2, ![1, N]⟩ : Shape).BroadcastsInDim ⟨2, ![M, N]⟩ (![0, 1] : Fin 2 → Fin 2))
    (hD : (⟨0, ![]⟩ : Shape).BroadcastsInDim ⟨2, ![M, N]⟩ (![] : Fin 0 → Fin 2))
    {X X' : FVec Ideal ⟨2, ![M, K]⟩ .f32} (hX : X = X') (W : FVec Ideal ⟨2, ![K, N]⟩ .f32) (b : FVec Ideal ⟨2, ![1, N]⟩ .f32) :
    maximumf
        (addf (matmul (DotDims.plain M K N) none (truncf .bf16 X ht1) (truncf .bf16 W ht2)
            (constant (F := Ideal) ⟨2, ![M, N]⟩ .f32 0x00000000#32))
          (broadcastTo ⟨2, ![M, N]⟩ b hb))
        (broadcast ⟨2, ![M, N]⟩ (Scalar.ofBits (F := Ideal) .f32 w))
      = maximumf
          (addf (Host.dotGeneral (F := Ideal) (DotDims.plain M K N) none X' W : FVec Ideal ⟨2, ![M, N]⟩ .f32)
            (broadcastInDim ⟨2, ![M, N]⟩ ![0, 1] hC b))
          (broadcastInDim ⟨2, ![M, N]⟩ ![] hD (constant (F := Ideal) ⟨0, ![]⟩ .f32 w)) := by
  rw [lin_eq ht1 ht2 hb hC hX W b]
  funext j
  show max _ _ = max _ (broadcastInDim (s := ⟨0, ![]⟩) ⟨2, ![M, N]⟩ ![] hD _ j)
  rw [Cert.HostLayout.bcast_scalar_apply]
  rfl

end Idealize.ShloMosaic.MlpRows

end
-- ==== Proof.Region3Value.lean ====
/-
  The value of the last pipelined region: a perceptron of four dense layers on pooled rows, as one function of the
  whole arrays the region finds.

  The region has one grid point, and every window's block is its whole array.  The body divides each row of the summed
  features by that row's count clamped below by one, passes the quotient through three rectified dense layers and one
  plain dense layer, and stores the one-column outcome.  `mlpArr` spells that function on whole arrays with a general
  product, broadcasts along named axes and broadcast scalar constants.  The body's stored value is `mlpArr` of its input
  blocks (`pay_eq`, from the layer statements over arbitrary extents); each input block is its array because the block
  index is zero on both axes (`iblk3_0` … `iblk3_9`); so the one write-back writes `mlpArr` of the arrays
  (`flushed_eq`), its block covers the output array, and the array ends holding it (`arr3`).
-/
import proofs.«115719_j12601434046587_2_alg».proof.Proof.Gen.KernelIdeal.Frame
import proofs.«115719_j12601434046587_2_alg».proof.Proof.MlpRows
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand3

open Cert.KernelIdeal Cert.KernelIdeal.Gen Idealize.ShloMosaic Idealize.ShloMosaic.ValueIdx

/-- The perceptron on whole arrays: the pooled mean (each row of S divided by that row's entry of Cn clamped below by
    one), three rectified dense layers and a plain dense layer, each bias a one-row matrix repeated down the rows. -/
def mlpArr (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2))
    (S : FVec Ideal S250x64 .f32) (Cn : FVec Ideal S250x1 .f32) (W0 : FVec Ideal S64x64 .f32) (b0 : FVec Ideal S1x64 .f32)
    (W1 : FVec Ideal S64x64 .f32) (b1 : FVec Ideal S1x64 .f32) (W2 : FVec Ideal S64x64 .f32) (b2 : FVec Ideal S1x64 .f32)
    (W3 : FVec Ideal S64x1 .f32) (b3 : FVec Ideal S1x1 .f32) : FVec Ideal S250x1 .f32 :=
  addf
    (Host.dotGeneral (DotDims.plain 250 64 1) none
      (maximumf
        (addf
          (Host.dotGeneral (DotDims.plain 250 64 64) none
            (maximumf
              (addf
                (Host.dotGeneral (DotDims.plain 250 64 64) none
                  (maximumf
                    (addf
                      (Host.dotGeneral (DotDims.plain 250 64 64) none
                        (Host.divf S
                          (broadcastInDim S250x64 ![0, 1] hA
                            (maximumf Cn (broadcastInDim S250x1 ![] hB (constant (F := Ideal) S_ .f32 0x3F800000#32)))))
                        W0)
                      (broadcastInDim S250x64 ![0, 1] hC b0))
                    (broadcastInDim S250x64 ![] hD (constant (F := Ideal) S_ .f32 0x00000000#32)))
                  W1)
                (broadcastInDim S250x64 ![0, 1] hC b1))
              (broadcastInDim S250x64 ![] hD (constant (F := Ideal) S_ .f32 0x00000000#32)))
            W2)
          (broadcastInDim S250x64 ![0, 1] hC b2))
        (broadcastInDim S250x64 ![] hD (constant (F := Ideal) S_ .f32 0x00000000#32)))
      W3)
    (broadcastInDim S250x1 ![0, 1] hE b3)

/-! ## The body's stored value is the perceptron of its loaded blocks -/

/-- The body's arithmetic on any ten arrays of the blocks' shapes is the perceptron of them: the three payloads
    unfolded, the identity shape casts dropped, then layer by layer from the pooled mean outward. -/
theorem pay_eq (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2))
    (x0 : Vec Ideal S250x64 .f32) (x1 : Vec Ideal S250x1 .f32) (x2 : Vec Ideal S64x64 .f32) (x3 : Vec Ideal S1x64 .f32)
    (x4 : Vec Ideal S64x64 .f32) (x5 : Vec Ideal S1x64 .f32) (x6 : Vec Ideal S64x64 .f32) (x7 : Vec Ideal S1x64 .f32)
    (x8 : Vec Ideal S64x1 .f32) (x9 : Vec Ideal S1x1 .f32) :
    k3_pay1 (F := Ideal) (k3_pay2 x1 x0 x2 x3 x4 x5 x6) (k3_pay3 x7) x8 x9
      = mlpArr hA hB hC hD hE x0 x1 x2 x3 x4 x5 x6 x7 x8 x9 := by
  unfold k3_pay1 k3_pay2 k3_pay3 mlpArr
  simp only [shapeCast_self]
  exact MlpRows.lin_eq (M := 250) (K := 64) (N := 1) bitsLt_bf16_f32 bitsLt_bf16_f32 broadcasts_S1x1_S250x1 hE
    (MlpRows.relu_lin_eq (M := 250) (K := 64) (N := 64) 0x00000000#32 bitsLt_bf16_f32 bitsLt_bf16_f32
      broadcasts_S1x64_S250x64 hC hD
      (MlpRows.relu_lin_eq (M := 250) (K := 64) (N := 64) 0x00000000#32 bitsLt_bf16_f32 bitsLt_bf16_f32
        broadcasts_S1x64_S250x64 hC hD
        (MlpRows.relu_lin_eq (M := 250) (K := 64) (N := 64) 0x00000000#32 bitsLt_bf16_f32 bitsLt_bf16_f32
          broadcasts_S1x64_S250x64 hC hD
          (MlpRows.pool_eq (M := 250) (N := 64) 0x3F800000#32 broadcasts_S250x1_S250x64 hA hB x0 x1)
          x2 x3)
        x4 x5)
      x6 x7)
    x8 x9

/-! ## Every block is its whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every window's block index is zero on both axes at every point. -/
theorem idx3 : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0) :=
  (by decide +kernel : ∀ t : Fin grid3.N, _)

theorem iblk3_0 (c : Dev nD) (t : Fin cfg3.N) : iblk3 (F := Ideal) V c 0 t = V c (Pipeline.arrRef spec3 0) := by
  obtain ⟨e0, e1⟩ := (idx3 t).1
  have hz' : (fun a => win3_0.index t a * main_v68.ty.shape.size a) = fun _ => 0 :=
    funext fun a => by
      match a with
      | ⟨0, _⟩ => exact (congrArg (· * main_v68.ty.shape.size (0 : Fin 2)) e0).trans (Nat.zero_mul _)
      | ⟨1, _⟩ => exact (congrArg (· * main_v68.ty.shape.size (1 : Fin 2)) e1).trans (Nat.zero_mul _)
  exact Memref.read_access_unit_zero (Elt Ideal) main_v68 hz' (fun a => by rw [congrFun hz' a]; simp)
    (V c (Pipeline.arrRef spec3 0))

theorem iblk3_1 (c : Dev nD) (t : Fin cfg3.N) : iblk3 (F := Ideal) V c 1 t = V c (Pipeline.arrRef spec3 1) := by
  obtain ⟨e0, e1⟩ := (idx3 t).2.1
  have hz' : (fun a => win3_1.index t a * main_v72.ty.shape.size a) = fun _ => 0 :=
    funext fun a => by
      match a with
      | ⟨0, _⟩ => exact (congrArg (· * main_v72.ty.shape.size (0 : Fin 2)) e0).trans (Nat.zero_mul _)
      | ⟨1, _⟩ => exact (congrArg (· * main_v72.ty.shape.size (1 : Fin 2)) e1).trans (Nat.zero_mul _)
  exact Memref.read_access_unit_zero (Elt Ideal) main_v72 hz' (fun a => by rw [congrFun hz' a]; simp)
    (V c (Pipeline.arrRef spec3 1))

theorem iblk3_2 (c : Dev nD) (t : Fin cfg3.N) : iblk3 (F := Ideal) V c 2 t = V c (Pipeline.arrRef spec3 2) := by
  obtain ⟨e0, e1⟩ := (idx3 t).2.2.1
  have hz' : (fun a => win3_2.index t a * main_v73.ty.shape.size a) = fun _ => 0 :=
    funext fun a => by
      match a with
      | ⟨0, _⟩ => exact (congrArg (· * main_v73.ty.shape.size (0 : Fin 2)) e0).trans (Nat.zero_mul _)
      | ⟨1, _⟩ => exact (congrArg (· * main_v73.ty.shape.size (1 : Fin 2)) e1).trans (Nat.zero_mul _)
  exact Memref.read_access_unit_zero (Elt Ideal) main_v73 hz' (fun a => by rw [congrFun hz' a]; simp)
    (V c (Pipeline.arrRef spec3 2))

theorem iblk3_3 (c : Dev nD) (t : Fin cfg3.N) : iblk3 (F := Ideal) V c 3 t = V c (Pipeline.arrRef spec3 3) := by
  obtain ⟨e0, e1⟩ := (idx3 t).2.2.2.1
  have hz' : (fun a => win3_3.index t a * main_v74.ty.shape.size a) = fun _ => 0 :=
    funext fun a => by
      match a with
      | ⟨0, _⟩ => exact (congrArg (· * main_v74.ty.shape.size (0 : Fin 2)) e0).trans (Nat.zero_mul _)
      | ⟨1, _⟩ => exact (congrArg (· * main_v74.ty.shape.size (1 : Fin 2)) e1).trans (Nat.zero_mul _)
  exact Memref.read_access_unit_zero (Elt Ideal) main_v74 hz' (fun a => by rw [congrFun hz' a]; simp)
    (V c (Pipeline.arrRef spec3 3))

theorem iblk3_4 (c : Dev nD) (t : Fin cfg3.N) : iblk3 (F := Ideal) V c 4 t = V c (Pipeline.arrRef spec3 4) := by
  obtain ⟨e0, e1⟩ := (idx3 t).2.2.2.2.1
  have hz' : (fun a => win3_4.index t a * main_v75.ty.shape.size a) = fun _ => 0 :=
    funext fun a => by
      match a with
      | ⟨0, _⟩ => exact (congrArg (· * main_v75.ty.shape.size (0 : Fin 2)) e0).trans (Nat.zero_mul _)
      | ⟨1, _⟩ => exact (congrArg (· * main_v75.ty.shape.size (1 : Fin 2)) e1).trans (Nat.zero_mul _)
  exact Memref.read_access_unit_zero (Elt Ideal) main_v75 hz' (fun a => by rw [congrFun hz' a]; simp)
    (V c (Pipeline.arrRef spec3 4))

theorem iblk3_5 (c : Dev nD) (t : Fin cfg3.N) : iblk3 (F := Ideal) V c 5 t = V c (Pipeline.arrRef spec3 5) := by
  obtain ⟨e0, e1⟩ := (idx3 t).2.2.2.2.2.1
  have hz' : (fun a => win3_5.index t a * main_v76.ty.shape.size a) = fun _ => 0 :=
    funext fun a => by
      match a with
      | ⟨0, _⟩ => exact (congrArg (· * main_v76.ty.shape.size (0 : Fin 2)) e0).trans (Nat.zero_mul _)
      | ⟨1, _⟩ => exact (congrArg (· * main_v76.ty.shape.size (1 : Fin 2)) e1).trans (Nat.zero_mul _)
  exact Memref.read_access_unit_zero (Elt Ideal) main_v76 hz' (fun a => by rw [congrFun hz' a]; simp)
    (V c (Pipeline.arrRef spec3 5))

theorem iblk3_6 (c : Dev nD) (t : Fin cfg3.N) : iblk3 (F := Ideal) V c 6 t = V c (Pipeline.arrRef spec3 6) := by
  obtain ⟨e0, e1⟩ := (idx3 t).2.2.2.2.2.2.1
  have hz' : (fun a => win3_6.index t a * main_v77.ty.shape.size a) = fun _ => 0 :=
    funext fun a => by
      match a with
      | ⟨0, _⟩ => exact (congrArg (· * main_v77.ty.shape.size (0 : Fin 2)) e0).trans (Nat.zero_mul _)
      | ⟨1, _⟩ => exact (congrArg (· * main_v77.ty.shape.size (1 : Fin 2)) e1).trans (Nat.zero_mul _)
  exact Memref.read_access_unit_zero (Elt Ideal) main_v77 hz' (fun a => by rw [congrFun hz' a]; simp)
    (V c (Pipeline.arrRef spec3 6))

theorem iblk3_7 (c : Dev nD) (t : Fin cfg3.N) : iblk3 (F := Ideal) V c 7 t = V c (Pipeline.arrRef spec3 7) := by
  obtain ⟨e0, e1⟩ := (idx3 t).2.2.2.2.2.2.2.1
  have hz' : (fun a => win3_7.index t a * main_v78.ty.shape.size a) = fun _ => 0 :=
    funext fun a => by
      match a with
      | ⟨0, _⟩ => exact (congrArg (· * main_v78.ty.shape.size (0 : Fin 2)) e0).trans (Nat.zero_mul _)
      | ⟨1, _⟩ => exact (congrArg (· * main_v78.ty.shape.size (1 : Fin 2)) e1).trans (Nat.zero_mul _)
  exact Memref.read_access_unit_zero (Elt Ideal) main_v78 hz' (fun a => by rw [congrFun hz' a]; simp)
    (V c (Pipeline.arrRef spec3 7))

theorem iblk3_8 (c : Dev nD) (t : Fin cfg3.N) : iblk3 (F := Ideal) V c 8 t = V c (Pipeline.arrRef spec3 8) := by
  obtain ⟨e0, e1⟩ := (idx3 t).2.2.2.2.2.2.2.2.1
  have hz' : (fun a => win3_8.index t a * main_v79.ty.shape.size a) = fun _ => 0 :=
    funext fun a => by
      match a with
      | ⟨0, _⟩ => exact (congrArg (· * main_v79.ty.shape.size (0 : Fin 2)) e0).trans (Nat.zero_mul _)
      | ⟨1, _⟩ => exact (congrArg (· * main_v79.ty.shape.size (1 : Fin 2)) e1).trans (Nat.zero_mul _)
  exact Memref.read_access_unit_zero (Elt Ideal) main_v79 hz' (fun a => by rw [congrFun hz' a]; simp)
    (V c (Pipeline.arrRef spec3 8))

theorem iblk3_9 (c : Dev nD) (t : Fin cfg3.N) : iblk3 (F := Ideal) V c 9 t = V c (Pipeline.arrRef spec3 9) := by
  obtain ⟨e0, e1⟩ := (idx3 t).2.2.2.2.2.2.2.2.2.1
  have hz' : (fun a => win3_9.index t a * main_v80.ty.shape.size a) = fun _ => 0 :=
    funext fun a => by
      match a with
      | ⟨0, _⟩ => exact (congrArg (· * main_v80.ty.shape.size (0 : Fin 2)) e0).trans (Nat.zero_mul _)
      | ⟨1, _⟩ => exact (congrArg (· * main_v80.ty.shape.size (1 : Fin 2)) e1).trans (Nat.zero_mul _)
  exact Memref.read_access_unit_zero (Elt Ideal) main_v80 hz' (fun a => by rw [congrFun hz' a]; simp)
    (V c (Pipeline.arrRef spec3 9))

/-! ## What the one write-back writes, and the array after the run -/

/-- The body's arithmetic on ten arrays, each equal to a named array, is the perceptron of the named arrays. -/
theorem pay_congr (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2))
    {x0 y0 : Vec Ideal S250x64 .f32} {x1 y1 : Vec Ideal S250x1 .f32} {x2 y2 : Vec Ideal S64x64 .f32} {x3 y3 : Vec Ideal S1x64 .f32}
    {x4 y4 : Vec Ideal S64x64 .f32} {x5 y5 : Vec Ideal S1x64 .f32} {x6 y6 : Vec Ideal S64x64 .f32} {x7 y7 : Vec Ideal S1x64 .f32}
    {x8 y8 : Vec Ideal S64x1 .f32} {x9 y9 : Vec Ideal S1x1 .f32}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) :
    k3_pay1 (F := Ideal) (k3_pay2 x1 x0 x2 x3 x4 x5 x6) (k3_pay3 x7) x8 x9
      = mlpArr hA hB hC hD hE y0 y1 y2 y3 y4 y5 y6 y7 y8 y9 := by
  subst h0 h1 h2 h3 h4 h5 h6 h7 h8 h9
  exact pay_eq hA hB hC hD hE x0 x1 x2 x3 x4 x5 x6 x7 x8 x9

/-- After the body the output's staging buffer holds the perceptron of the input blocks, named as arrays. -/
theorem after_eq (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2)) (c : Dev nD) (t : Fin cfg3.N)
    (a0 : FVec Ideal S250x64 .f32) (a1 : FVec Ideal S250x1 .f32) (a2 : FVec Ideal S64x64 .f32) (a3 : FVec Ideal S1x64 .f32) (a4 : FVec Ideal S64x64 .f32) (a5 : FVec Ideal S1x64 .f32) (a6 : FVec Ideal S64x64 .f32) (a7 : FVec Ideal S1x64 .f32) (a8 : FVec Ideal S64x1 .f32) (a9 : FVec Ideal S1x1 .f32)
    (h0 : iblk3 (F := Ideal) V c 0 t = a0)
    (h1 : iblk3 (F := Ideal) V c 1 t = a1)
    (h2 : iblk3 (F := Ideal) V c 2 t = a2)
    (h3 : iblk3 (F := Ideal) V c 3 t = a3)
    (h4 : iblk3 (F := Ideal) V c 4 t = a4)
    (h5 : iblk3 (F := Ideal) V c 5 t = a5)
    (h6 : iblk3 (F := Ideal) V c 6 t = a6)
    (h7 : iblk3 (F := Ideal) V c 7 t = a7)
    (h8 : iblk3 (F := Ideal) V c 8 t = a8)
    (h9 : iblk3 (F := Ideal) V c 9 t = a9) :
    (dat3 (F := Ideal) V c).after 10 t = mlpArr hA hB hC hD hE a0 a1 a2 a3 a4 a5 a6 a7 a8 a9 := by
  rw [after3_10]
  unfold out3_10
  rw [View.canon_unit_zero hz]
  simp only [View.ld_unit_zero (S := S250x64) hz, View.ld_unit_zero (S := S250x1) hz, View.ld_unit_zero (S := S64x64) hz,
    View.ld_unit_zero (S := S1x64) hz, View.ld_unit_zero (S := S64x1) hz, View.ld_unit_zero (S := S1x1) hz]
  exact pay_congr hA hB hC hD hE h0 h1 h2 h3 h4 h5 h6 h7 h8 h9

/-- What the point writes back is its block of the perceptron of the arrays: the block index is zero on both axes and
    the block has the array's sizes, so the block read through zero offsets is the array. -/
theorem flushed_eq (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2)) (c : Dev nD) (t : Fin cfg3.N)
    (a0 : FVec Ideal S250x64 .f32) (a1 : FVec Ideal S250x1 .f32) (a2 : FVec Ideal S64x64 .f32) (a3 : FVec Ideal S1x64 .f32) (a4 : FVec Ideal S64x64 .f32) (a5 : FVec Ideal S1x64 .f32) (a6 : FVec Ideal S64x64 .f32) (a7 : FVec Ideal S1x64 .f32) (a8 : FVec Ideal S64x1 .f32) (a9 : FVec Ideal S1x1 .f32)
    (h0 : iblk3 (F := Ideal) V c 0 t = a0)
    (h1 : iblk3 (F := Ideal) V c 1 t = a1)
    (h2 : iblk3 (F := Ideal) V c 2 t = a2)
    (h3 : iblk3 (F := Ideal) V c 3 t = a3)
    (h4 : iblk3 (F := Ideal) V c 4 t = a4)
    (h5 : iblk3 (F := Ideal) V c 5 t = a5)
    (h6 : iblk3 (F := Ideal) V c 6 t = a6)
    (h7 : iblk3 (F := Ideal) V c 7 t = a7)
    (h8 : iblk3 (F := Ideal) V c 8 t = a8)
    (h9 : iblk3 (F := Ideal) V c 9 t = a9) :
    (dat3 (F := Ideal) V c).flushed 10 t
      = ((cfg3.win 10).blk t).view.read (Elt Ideal) (mlpArr hA hB hC hD hE a0 a1 a2 a3 a4 a5 a6 a7 a8 a9) := by
  show (cfg3.win 10).cut (grid3.coords t) ((dat3 (F := Ideal) V c).after 10 t) = _
  rw [after_eq V hA hB hC hD hE c t a0 a1 a2 a3 a4 a5 a6 a7 a8 a9 h0 h1 h2 h3 h4 h5 h6 h7 h8 h9]
  obtain ⟨e0, e1⟩ := (idx3 t).2.2.2.2.2.2.2.2.2.2
  have hz' : (fun a => win3_10.index t a * main_v81.ty.shape.size a) = fun _ => 0 :=
    funext fun a => by
      match a with
      | ⟨0, _⟩ => exact (congrArg (· * main_v81.ty.shape.size (0 : Fin 2)) e0).trans (Nat.zero_mul _)
      | ⟨1, _⟩ => exact (congrArg (· * main_v81.ty.shape.size (1 : Fin 2)) e1).trans (Nat.zero_mul _)
  exact (Memref.read_access_unit_zero (Elt Ideal) main_v81 hz' (fun a => by rw [congrFun hz' a]; simp)
    (mlpArr hA hB hC hD hE a0 a1 a2 a3 a4 a5 a6 a7 a8 a9)).symm

/-- The grid's one point. -/
abbrev t3 : Fin cfg3.N := ⟨0, by decide⟩

/-- Every index of the output array is in the block of the grid's one point: the block starts at zero and has the
    array's sizes on both axes. -/
theorem mem_blk3 : ∀ j : ((View.whole main_v81).slice (win3_10.rect t3)).ty.Idx,
    j ∈ ((View.whole main_v81).slice (win3_10.rect t3)).set := by
  intro j
  rw [View.set_slice_whole, Rect.mem_set_unit]
  intro a
  have h0 : (j 0 : Nat) < 250 := (j 0).isLt
  have h1 : (j 1 : Nat) < 1 := (j 1).isLt
  match a with
  | ⟨0, _⟩ =>
    show win3_10.index t3 0 * win3_10.size 0 ≤ (j 0 : Nat)
      ∧ (j 0 : Nat) < win3_10.index t3 0 * win3_10.size 0 + win3_10.xsize (grid3.coords t3) 0
    rw [show win3_10.index t3 0 * win3_10.size 0 = 0 from by decide +kernel,
      show win3_10.xsize (grid3.coords t3) 0 = 250 from by decide +kernel]
    omega
  | ⟨1, _⟩ =>
    show win3_10.index t3 1 * win3_10.size 1 ≤ (j 1 : Nat)
      ∧ (j 1 : Nat) < win3_10.index t3 1 * win3_10.size 1 + win3_10.xsize (grid3.coords t3) 1
    rw [show win3_10.index t3 1 * win3_10.size 1 = 0 from by decide +kernel,
      show win3_10.xsize (grid3.coords t3) 1 = 1 from by decide +kernel]
    omega

/-- The grid's one point writes back, and its block covers every index of the output array. -/
theorem cover3 (c : Dev nD) (i : ((cfg3.win 10).arr.view.loc (c.tc : Thread nD τ)).2.ty.Idx) :
    ∃ t : Fin cfg3.N, (cfg3.win 10).flush t = true ∧ i ∈ ((cfg3.win 10).blk t).view.set :=
  ⟨t3, flush3_10 _, mem_blk3 i⟩

/-- The output array after the region: the perceptron of the arrays the region finds. -/
theorem arr3 (hA : S250x1.BroadcastsInDim S250x64 (![0, 1] : Fin 2 → Fin 2)) (hB : S_.BroadcastsInDim S250x1 (![] : Fin 0 → Fin 2))
    (hC : S1x64.BroadcastsInDim S250x64 (![0, 1] : Fin 2 → Fin 2)) (hD : S_.BroadcastsInDim S250x64 (![] : Fin 0 → Fin 2))
    (hE : S1x1.BroadcastsInDim S250x1 (![0, 1] : Fin 2 → Fin 2))
    (V : (c : Dev nD) → (b : Ref sig .tc) → Buf (Elt Ideal) ((c : Thread nD τ).loc b)) (c : Dev nD) :
    (dat3 (F := Ideal) V c).arrAt 10 cfg3.N
      = mlpArr hA hB hC hD hE (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (dat3 (F := Ideal) V c).arrAt_eq_of_cover 10 _
    (fun t _ => flushed_eq V hA hB hC hD hE c t _ _ _ _ _ _ _ _ _ _
      (iblk3_0 V c t) (iblk3_1 V c t) (iblk3_2 V c t) (iblk3_3 V c t) (iblk3_4 V c t) (iblk3_5 V c t) (iblk3_6 V c t)
      (iblk3_7 V c t) (iblk3_8 V c t) (iblk3_9 V c t))
    (cover3 c)

end Cert.KernelIdeal.Hand3

end
-- ==== Proof.ChainE.lean ====
/-
  The dense layers and the result.

  Region 3 finds the per-graph sums, the per-graph node counts and the four dense layers' transposed weights and bias rows,
  each the reference's stage of the launch arguments, and leaves the mean over every graph's nodes passed through the four
  dense layers: the reference's last stage but one.  The last host operation drops the unit column, as the reference's
  does, so the result buffer ends at the reference's result as a function of the launch arguments.
-/
import proofs.«115719_j12601434046587_2_alg».proof.Proof.Gen.KernelIdeal.Frame
import proofs.«115719_j12601434046587_2_alg».proof.Proof.Gen.ReferenceIdeal.Read
import proofs.«115719_j12601434046587_2_alg».proof.Proof.ChainA
import proofs.«115719_j12601434046587_2_alg».proof.Proof.Carry
import proofs.«115719_j12601434046587_2_alg».proof.Proof.ChainD
import proofs.«115719_j12601434046587_2_alg».proof.Proof.Region3Value

set_option maxRecDepth 16384

noncomputable section

namespace Cert.KernelIdeal.ChainE

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
theorem W8_v81 : W8 m ρ c (Proc.devRef .tc main_v81) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W8_arr m ρ c 10).trans ?_
  refine (Cert.KernelIdeal.Hand3.arr3 Cert.ReferenceIdeal.Facts₀.bcast_S250x1_S250x64_0_1 Cert.ReferenceIdeal.Facts₀.bcast_S_S250x1 Cert.ReferenceIdeal.Facts₀.bcast_S1x64_S250x64_0_1 Cert.ReferenceIdeal.Facts₀.bcast_S_S250x64 Cert.ReferenceIdeal.Facts₀.bcast_S1x1_S250x1_0_1 (V7 m ρ) c).trans ?_
  show Cert.KernelIdeal.Hand3.mlpArr _ _ _ _ _ (W7 m ρ c (Proc.devRef .tc main_v68)) (W7 m ρ c (Proc.devRef .tc main_v72)) (W7 m ρ c (Proc.devRef .tc main_v73)) (W7 m ρ c (Proc.devRef .tc main_v74)) (W7 m ρ c (Proc.devRef .tc main_v75)) (W7 m ρ c (Proc.devRef .tc main_v76)) (W7 m ρ c (Proc.devRef .tc main_v77)) (W7 m ρ c (Proc.devRef .tc main_v78)) (W7 m ρ c (Proc.devRef .tc main_v79)) (W7 m ρ c (Proc.devRef .tc main_v80)) = _
  rw [ChainD.W7_v68 m ρ c, ChainD.W7_v72 m ρ c, ChainD.W7_v73 m ρ c, ChainD.W7_v74 m ρ c, ChainD.W7_v75 m ρ c, ChainD.W7_v76 m ρ c, ChainD.W7_v77 m ρ c, ChainD.W7_v78 m ρ c, ChainD.W7_v79 m ρ c, ChainD.W7_v80 m ρ c]
  rfl

set_option maxHeartbeats 4000000 in
/-- The result buffer after the whole program is the reference's result as a function of the launch arguments. -/
theorem W9_v82 : W9 m ρ c (Proc.devRef .tc main_v82) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps4 (W8 m ρ c) (Proc.devRef .tc main_v82) = _
  after_results_simp
  rw [W8_v81 m ρ c]
  rfl

end Cert.KernelIdeal.ChainE

end
-- ==== Proof.lean ====
/-
  The certificate of a three-layer message-passing network with a pooled dense head, computed by four kernel regions
  among host gathers and scatter-adds, against a plain host reference.

  Both programs read the same arguments.  Each message-passing layer takes, for every node, the mean of its neighbours'
  rows (a gather along the edges, a sum at the edges' ends, a division by the degree clamped at one) and the node's own
  row, multiplies each by a weight matrix, and adds a bias; the first two layers clamp the outcome at zero.  The kernel
  program forms the mean on the host exactly as the reference does and computes the rest of a layer in a kernel region over
  ten blocks of ten thousand rows, adding the two products first and the bias last, where the reference adds the bias to
  the first product and then the second product: on the extended reals addition is commutative and associative, so the
  two agree entry by entry, with no appeal to finiteness.  After the third layer both programs add the rows up per graph
  and count each graph's nodes on the host; the kernel program's last region divides the sums by the counts clamped at
  one and applies the four dense layers, which the reference does with host operations; entry by entry these are the same
  sums.  A change of float format is the identity on extended reals, a product accumulated into a zero array is the
  plain sum of products, and a bias vector reshaped to a row is the vector broadcast to a row.

  The three frames are the generated ones (the reference's is its generated run with the result dropped); the
  idealization rewrote nothing, so the preservation claim is trivial; the value claim is the chain of the modules under
  Proof/: the kernel program's run with its result named at the fold of its segments, each region's output array as
  one function of the arrays it finds, and that fold read stage by stage against the reference's stages.
-/
import proofs.«115719_j12601434046587_2_alg».proof.Defs
import proofs.«115719_j12601434046587_2_alg».proof.Proof.Gen.Kernel
import proofs.«115719_j12601434046587_2_alg».proof.Proof.Gen.Kernel.Frame
import proofs.«115719_j12601434046587_2_alg».proof.Proof.Gen.KernelIdeal
import proofs.«115719_j12601434046587_2_alg».proof.Proof.Gen.KernelIdeal.Frame
import proofs.«115719_j12601434046587_2_alg».proof.Proof.Gen.ReferenceIdeal
import proofs.«115719_j12601434046587_2_alg».proof.Proof.Gen.ReferenceIdeal.Run
import proofs.«115719_j12601434046587_2_alg».proof.Proof.Gen.ReferenceIdeal.Read
import proofs.«115719_j12601434046587_2_alg».proof.Proof.Gen.Pre_finite_inputs
import proofs.«115719_j12601434046587_2_alg».proof.Proof.KernelRun
import proofs.«115719_j12601434046587_2_alg».proof.Proof.ChainE
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result at the reference's result
    as a function of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v82),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq]
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  exact (Cert.KernelIdeal.ChainE.W9_v82 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
